-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1x128 : Shape := ⟨3, ![4, 1, 128]⟩
abbrev S1x1024x3 : Shape := ⟨3, ![1, 1024, 3]⟩
abbrev S1x1x128 : Shape := ⟨3, ![1, 1, 128]⟩
abbrev S1024x1 : Shape := ⟨2, ![1024, 1]⟩
abbrev S1x1 : Shape := ⟨2, ![1, 1]⟩
abbrev S1x8192 : Shape := ⟨2, ![1, 8192]⟩
abbrev S1024x3 : Shape := ⟨2, ![1024, 3]⟩
abbrev S1024 : Shape := ⟨1, ![1024]⟩
abbrev S1x1024 : Shape := ⟨2, ![1, 1024]⟩
abbrev S1024x1024 : Shape := ⟨2, ![1024, 1024]⟩
abbrev S1 : Shape := ⟨1, ![1]⟩
abbrev S1x128 : Shape := ⟨2, ![1, 128]⟩
abbrev S4x1x1 : Shape := ⟨3, ![4, 1, 1]⟩
abbrev S4 : Shape := ⟨1, ![4]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1x128, .f32⟩
  | .hbm, ⟨3, _⟩ => ⟨S4x1x1, .f32⟩
  | .hbm, ⟨4, _⟩ => ⟨S4, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x128, .f32⟩
  | .local _ .vmem, ⟨5, _⟩ => ⟨S1x1x128, .f32⟩
  | .local _ .vmem, ⟨6, _⟩ => ⟨S1024x1, .f32⟩
  | .local _ .vmem, ⟨7, _⟩ => ⟨S1x1, .f32⟩
  | .local _ .vmem, ⟨8, _⟩ => ⟨S1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v30 : BitVec 32 := Scalar.muli arg2 c1024_i32
  v30
def k0_off1 (i : grid0.Coords) : Fin 2 → Nat :=
  let c0_15 : Index := 0#32
  let arg2 : BitVec 32 := BitVec.ofNat 32 (i 2).val
  let c1024_i32 : BitVec 32 := 1024#32
  let v30 : BitVec 32 := Scalar.muli arg2 c1024_i32
  let v31 : BitVec 32 := v30
  let v32 : Index := Scalar.indexCast v31
  ![0, v32.toNat]
def k0_cond2 (i : grid0.Coords) : BitVec 1 :=
  let arg1 : BitVec 32 := BitVec.ofNat 32 (i 1).val
  let c7_i32_19 : BitVec 32 := 7#32
  let v44 : BitVec 1 := Scalar.cmpi .eq arg1 c7_i32_19
  let arg2 : BitVec 32 := BitVec.ofNat 32 (i 2).val
  let c7_i32_20 : BitVec 32 := 7#32
  let v45 : BitVec 1 := Scalar.cmpi .eq arg2 c7_i32_20
  let v46 : BitVec 1 := Scalar.andi v44 v45
  let v47 : BitVec 32 := Scalar.extui v46
  let c0_i32_21 : BitVec 32 := 0#32
  let v48 : BitVec 1 := Scalar.cmpi .ne v47 c0_i32_21
  v48

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1x1024 : 0 < S1x1024.numel
  shapeCasts_S1x1024_S1x1024 : S1x1024.ShapeCasts S1x1024
  reduces_S1024x1_S1 : S1024x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x8192_S1x8192_0_0 : ∀ a, (![0, 0] : Fin 2 → Nat) a + S1x8192.size a ≤ S1x8192.size a
  h_S1x8192 : 0 < S1x8192.numel
  reduces_S1x8192_S1 : S1x8192.Reduces [1] S1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S4x1x128_S4x1x1_0_0_0 : S4x1x128.Slices ![0, 0, 0] S4x1x1
  shapeCasts_S4x1x1_S4 : S4x1x1.ShapeCasts S4
  reducesTo_S4_S_d0 : S4.ReducesTo [0] S_
  h_S_ : 0 < S_.numel
  dot_S1024x3_S1024x3_S1024x1024_1_1_0_0_n_n_wf : DotDims.WF S1024x3 S1024x3 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 40
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  bcast_S_S4 : S_.BroadcastsInDim S4 (![] : Fin 0 → Fin S4.rank)
  reducesTo_S4x8192x8192_S4x8192_d1 : S4x8192x8192.ReducesTo [1] S4x8192
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.BitsBodyRun.lean ====
/-
  One grid point of the Chamfer kernel as a Hoare triple, at any float instance.

  A grid point (b, ni, mi) sees the ni-th tile of 1024 points of x[b] and the mi-th tile of 1024 points of y[b], forms the
  1024 x 1024 tile of clamped squared distances, and folds it into three running quantities the kernel keeps between points:
  the row minima of the current x tile over the y tiles seen so far (a 1024 x 1 column), the column minima of every y tile
  over the x tiles seen so far (a 1 x 8192 row, of which the point touches only the 1024 columns of its own y tile), and the
  running sum of finished row minima (a 1 x 1 cell, touched only at the last y tile). At the very last point of a batch the
  two means are formed and written to the output block. The three triples below say, case by case of the two branches,
  what each buffer holds after the point as a function of what it held before.
-/
import proofs.«178762_j53661321396251_1_alg».proof.Proof.Gen.Kernel.Frame
import proofs.«178762_j53661321396251_1_alg».proof.Proof.Gen.Kernel.Skeleton
import Idealize.ShloMosaic.Lib.Pipeline.FrameBody
import Idealize.ShloMosaic.Lib.Pipeline.FrameSuffix
import Idealize.ShloMosaic.Lib.Pipeline.Value
import Idealize.ShloMosaic.Lib.WritesUnit
import Idealize.ShloMosaic.Lib.ValueIdx
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets, however they are spelt. -/
theorem hz2 : (![0, 0] : Fin 2 → ℕ) = fun _ => 0 := by funext a; fin_cases a <;> rfl
theorem hz3 : (![0, 0, 0] : Fin 3 → ℕ) = fun _ => 0 := by funext a; fin_cases a <;> rfl

/-- The point is at the last y tile (mi = 7): the running sum is updated there. -/
abbrev condLast (i : grid0.Coords) : Prop := (Scalar.cmpi .ne (Scalar.extui (Scalar.cmpi .eq (BitVec.ofNat 32 (i 2).val) 7#32)) 0#32) = 1#1
/-- The point is the last of its batch (ni = 7 and mi = 7): the output block is written there. -/
abbrev condFlush (i : grid0.Coords) : Prop := k0_cond2 i = 1#1

/-- The 1024 columns of the running column minima that belong to the point's y tile. -/
abbrev rectC (i : grid0.Coords) : Rect S1x8192 := Rect.unit (s := S1x8192) (k0_off1 i) S1x1024.size (k0_off1_inb i)

/-- The running column minima after the point: the columns of the point's y tile replaced by the fold of the tile's column
    minima into what they held, every other column untouched. -/
def colStep (arg8 : Memref sig .tc .vmem S1x8192 .f32) (harg8 : arg8.IsWhole) (i : grid0.Coords)
    (x0 y0 : Vec F S1x1024x3 .f32) (s2 : Vec F S1x8192 .f32) : Vec F S1x8192 .f32 :=
  arg8.view.read (Elt F) (arg8.view.writes (Elt F) (harg8.unread s2)
    [⟨rectC i, k0_pay1 (k0_pay5 x0 y0) (View.ld s2 (rectC i)) (Scalar.cmpi .eq (BitVec.ofNat 32 (i 1).val) 0#32)⟩])

set_option maxHeartbeats 1000000 in
/-- A point that is not at the last y tile: the row minima and the point's columns of the column minima are folded; the running sum and the output block are left as they were. -/
theorem run_mid (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x128 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1x8192 .f32) (harg8 : arg8.IsWhole) (hc0 : ¬condLast i) (hc1 : ¬condFlush i)
    (x0 y0 : Vec F S1x1024x3 .f32) (o : Vec F S1x1x128 .f32) (s0 : Vec F S1024x1 .f32) (s1 : Vec F S1x1 .f32) (s2 : Vec F S1x8192 .f32)
    (E : Set ℕ) (K : PUnit → sProp 𝕄) :
    iprop(owns (c : Thread nD τ) arg3 fullShare x0 ∗ owns (c : Thread nD τ) arg4 fullShare y0 ∗ owns (c : Thread nD τ) arg5 fullShare o
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare y0 ∗ owns (c : Thread nD τ) arg5 fullShare o
        ∗ owns (c : Thread nD τ) arg6 fullShare (k0_pay6 i x0 y0 s0) ∗ owns (c : Thread nD τ) arg7 fullShare s1
        ∗ owns (c : Thread nD τ) arg8 fullShare (colStep arg8 harg8 i x0 y0 s2)) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg6.eq_unread hfs0; obtain rfl := harg7.eq_unread hfs1; obtain rfl := harg8.eq_unread hfs2
  sl_exec (disch := first | exact hc0 | exact hc1)
  sl_step
  sl_unfold_run_names
  have e3 : View.readAt (Elt F) arg3.view (Rect.unit ![0, 0, 0] S1x1024x3.size inb_S1x1024x3_S1x1024x3_0_0_0).toLoadRect (harg3.unread x0) = x0 := by
    rw [View.readAt_eq_ld, harg3.read_unread, View.ld_unit_zero hz3]
  have e4 : View.readAt (Elt F) arg4.view (Rect.unit ![0, 0, 0] S1x1024x3.size inb_S1x1024x3_S1x1024x3_0_0_0).toLoadRect (harg4.unread y0) = y0 := by
    rw [View.readAt_eq_ld, harg4.read_unread, View.ld_unit_zero hz3]
  have e6 : View.readAt (Elt F) arg6.view (Rect.unit ![0, 0] S1024x1.size inb_S1024x1_S1024x1_0_0).toLoadRect (harg6.unread s0) = s0 := by
    rw [View.readAt_eq_ld, harg6.read_unread, View.ld_unit_zero hz2]
  have e7 : View.readAt (Elt F) arg7.view (Rect.unit ![0, 0] S1x1.size inb_S1x1_S1x1_0_0).toLoadRect (harg7.unread s1) = s1 := by
    rw [View.readAt_eq_ld, harg7.read_unread, View.ld_unit_zero hz2]
  have e8s : View.readAt (Elt F) arg8.view (Rect.unit (s := S1x8192) (k0_off1 i) S1x1024.size (k0_off1_inb i)).toLoadRect (harg8.unread s2) = View.ld s2 (rectC i) := by
    rw [View.readAt_eq_ld, harg8.read_unread]
  have c6 : ∀ w : S1024x1.Idx → Elt F .f32, arg6.view.readCov [(⟨Rect.unit ![0, 0] S1024x1.size inb_S1024x1_S1024x1_0_0, w⟩ : View.Piece (Elt F) S1024x1 .f32)] (Rect.unit ![0, 0] S1024x1.size inb_S1024x1_S1024x1_0_0).toLoadRect = w :=
    fun w => View.readCov_unit_zero arg6.view hz2 _ w
  have c7 : ∀ w : S1x1.Idx → Elt F .f32, arg7.view.readCov [(⟨Rect.unit ![0, 0] S1x1.size inb_S1x1_S1x1_0_0, w⟩ : View.Piece (Elt F) S1x1 .f32)] (Rect.unit ![0, 0] S1x1.size inb_S1x1_S1x1_0_0).toLoadRect = w :=
    fun w => View.readCov_unit_zero arg7.view hz2 _ w
  have e8w : ∀ g, View.readAt (Elt F) arg8.view (Rect.unit ![0, 0] S1x8192.size inb_S1x8192_S1x8192_0_0).toLoadRect g = arg8.view.read (Elt F) g := by
    intro g; rw [View.readAt_eq_ld, View.ld_unit_zero hz2]
  iapply Hk
  isplitl [H0]
  · iexists _; isplitr
    swap; · iexact H0
    ipureintro; exact harg3.read_unread _
  isplitl [H1]
  · iexists _; isplitr
    swap; · iexact H1
    ipureintro; exact harg4.read_unread _
  isplitl [H2]
  · iexists _; isplitr
    swap; · iexact H2
    ipureintro; exact harg5.read_unread _
  isplitl [HS0]
  · iexists _; isplitr
    swap; · iexact HS0
    ipureintro
    simp only [e3, e4, e6]
    rw [View.read_writes_eq_canon _ _ _ (fun y => ⟨_, List.mem_singleton_self _, View.mem_set_unit_zero hz2 inb_S1024x1_S1024x1_0_0 y⟩), View.canon_unit_zero hz2]
  isplitl [HS1]
  · iexists _; isplitr
    swap; · iexact HS1
    ipureintro; exact harg7.read_unread _
  · iexists _; isplitr
    swap; · iexact HS2
    ipureintro
    simp only [e3, e4, e8s]
    rfl

set_option maxHeartbeats 1000000 in
/-- A point at the last y tile that does not end its batch: as before, and the finished row minima are summed into the running sum. -/
theorem run_last (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x128 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1x8192 .f32) (harg8 : arg8.IsWhole) (hc0 : condLast i) (hc1 : ¬condFlush i)
    (x0 y0 : Vec F S1x1024x3 .f32) (o : Vec F S1x1x128 .f32) (s0 : Vec F S1024x1 .f32) (s1 : Vec F S1x1 .f32) (s2 : Vec F S1x8192 .f32)
    (E : Set ℕ) (K : PUnit → sProp 𝕄) :
    iprop(owns (c : Thread nD τ) arg3 fullShare x0 ∗ owns (c : Thread nD τ) arg4 fullShare y0 ∗ owns (c : Thread nD τ) arg5 fullShare o
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare y0 ∗ owns (c : Thread nD τ) arg5 fullShare o
        ∗ owns (c : Thread nD τ) arg6 fullShare (k0_pay6 i x0 y0 s0) ∗ owns (c : Thread nD τ) arg7 fullShare (k0_pay2 (BitVec.ofNat 32 (i 1).val) (k0_pay6 i x0 y0 s0) s1)
        ∗ owns (c : Thread nD τ) arg8 fullShare (colStep arg8 harg8 i x0 y0 s2)) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg6.eq_unread hfs0; obtain rfl := harg7.eq_unread hfs1; obtain rfl := harg8.eq_unread hfs2
  sl_exec (disch := first | exact hc0 | exact hc1)
  sl_step
  sl_unfold_run_names
  have e3 : View.readAt (Elt F) arg3.view (Rect.unit ![0, 0, 0] S1x1024x3.size inb_S1x1024x3_S1x1024x3_0_0_0).toLoadRect (harg3.unread x0) = x0 := by
    rw [View.readAt_eq_ld, harg3.read_unread, View.ld_unit_zero hz3]
  have e4 : View.readAt (Elt F) arg4.view (Rect.unit ![0, 0, 0] S1x1024x3.size inb_S1x1024x3_S1x1024x3_0_0_0).toLoadRect (harg4.unread y0) = y0 := by
    rw [View.readAt_eq_ld, harg4.read_unread, View.ld_unit_zero hz3]
  have e6 : View.readAt (Elt F) arg6.view (Rect.unit ![0, 0] S1024x1.size inb_S1024x1_S1024x1_0_0).toLoadRect (harg6.unread s0) = s0 := by
    rw [View.readAt_eq_ld, harg6.read_unread, View.ld_unit_zero hz2]
  have e7 : View.readAt (Elt F) arg7.view (Rect.unit ![0, 0] S1x1.size inb_S1x1_S1x1_0_0).toLoadRect (harg7.unread s1) = s1 := by
    rw [View.readAt_eq_ld, harg7.read_unread, View.ld_unit_zero hz2]
  have e8s : View.readAt (Elt F) arg8.view (Rect.unit (s := S1x8192) (k0_off1 i) S1x1024.size (k0_off1_inb i)).toLoadRect (harg8.unread s2) = View.ld s2 (rectC i) := by
    rw [View.readAt_eq_ld, harg8.read_unread]
  have c6 : ∀ w : S1024x1.Idx → Elt F .f32, arg6.view.readCov [(⟨Rect.unit ![0, 0] S1024x1.size inb_S1024x1_S1024x1_0_0, w⟩ : View.Piece (Elt F) S1024x1 .f32)] (Rect.unit ![0, 0] S1024x1.size inb_S1024x1_S1024x1_0_0).toLoadRect = w :=
    fun w => View.readCov_unit_zero arg6.view hz2 _ w
  have c7 : ∀ w : S1x1.Idx → Elt F .f32, arg7.view.readCov [(⟨Rect.unit ![0, 0] S1x1.size inb_S1x1_S1x1_0_0, w⟩ : View.Piece (Elt F) S1x1 .f32)] (Rect.unit ![0, 0] S1x1.size inb_S1x1_S1x1_0_0).toLoadRect = w :=
    fun w => View.readCov_unit_zero arg7.view hz2 _ w
  have e8w : ∀ g, View.readAt (Elt F) arg8.view (Rect.unit ![0, 0] S1x8192.size inb_S1x8192_S1x8192_0_0).toLoadRect g = arg8.view.read (Elt F) g := by
    intro g; rw [View.readAt_eq_ld, View.ld_unit_zero hz2]
  iapply Hk
  isplitl [H0]
  · iexists _; isplitr
    swap; · iexact H0
    ipureintro; exact harg3.read_unread _
  isplitl [H1]
  · iexists _; isplitr
    swap; · iexact H1
    ipureintro; exact harg4.read_unread _
  isplitl [H2]
  · iexists _; isplitr
    swap; · iexact H2
    ipureintro; exact harg5.read_unread _
  isplitl [HS0]
  · iexists _; isplitr
    swap; · iexact HS0
    ipureintro
    simp only [e3, e4, e6]
    rw [View.read_writes_eq_canon _ _ _ (fun y => ⟨_, List.mem_singleton_self _, View.mem_set_unit_zero hz2 inb_S1024x1_S1024x1_0_0 y⟩), View.canon_unit_zero hz2]
  isplitl [HS1]
  · iexists _; isplitr
    swap; · iexact HS1
    ipureintro
    simp only [e3, e4, e6, e7, c6]
    rw [View.read_writes_eq_canon _ _ _ (fun y => ⟨_, List.mem_singleton_self _, View.mem_set_unit_zero hz2 inb_S1x1_S1x1_0_0 y⟩), View.canon_unit_zero hz2]
  · iexists _; isplitr
    swap; · iexact HS2
    ipureintro
    simp only [e3, e4, e8s]
    rfl

set_option maxHeartbeats 1000000 in
/-- The last point of a batch: as before, and the output block receives the two means formed from the running sum and the finished column minima. -/
theorem run_flush (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x128 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1x8192 .f32) (harg8 : arg8.IsWhole) (hc0 : condLast i) (hc1 : condFlush i)
    (x0 y0 : Vec F S1x1024x3 .f32) (o : Vec F S1x1x128 .f32) (s0 : Vec F S1024x1 .f32) (s1 : Vec F S1x1 .f32) (s2 : Vec F S1x8192 .f32)
    (E : Set ℕ) (K : PUnit → sProp 𝕄) :
    iprop(owns (c : Thread nD τ) arg3 fullShare x0 ∗ owns (c : Thread nD τ) arg4 fullShare y0 ∗ owns (c : Thread nD τ) arg5 fullShare o
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare y0 ∗ owns (c : Thread nD τ) arg5 fullShare (k0_pay3 (k0_pay2 (BitVec.ofNat 32 (i 1).val) (k0_pay6 i x0 y0 s0) s1) (colStep arg8 harg8 i x0 y0 s2))
        ∗ owns (c : Thread nD τ) arg6 fullShare (k0_pay6 i x0 y0 s0) ∗ owns (c : Thread nD τ) arg7 fullShare (k0_pay2 (BitVec.ofNat 32 (i 1).val) (k0_pay6 i x0 y0 s0) s1)
        ∗ owns (c : Thread nD τ) arg8 fullShare (colStep arg8 harg8 i x0 y0 s2)) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg6.eq_unread hfs0; obtain rfl := harg7.eq_unread hfs1; obtain rfl := harg8.eq_unread hfs2
  sl_exec (disch := first | exact hc0 | exact hc1)
  sl_step
  sl_unfold_run_names
  have e3 : View.readAt (Elt F) arg3.view (Rect.unit ![0, 0, 0] S1x1024x3.size inb_S1x1024x3_S1x1024x3_0_0_0).toLoadRect (harg3.unread x0) = x0 := by
    rw [View.readAt_eq_ld, harg3.read_unread, View.ld_unit_zero hz3]
  have e4 : View.readAt (Elt F) arg4.view (Rect.unit ![0, 0, 0] S1x1024x3.size inb_S1x1024x3_S1x1024x3_0_0_0).toLoadRect (harg4.unread y0) = y0 := by
    rw [View.readAt_eq_ld, harg4.read_unread, View.ld_unit_zero hz3]
  have e6 : View.readAt (Elt F) arg6.view (Rect.unit ![0, 0] S1024x1.size inb_S1024x1_S1024x1_0_0).toLoadRect (harg6.unread s0) = s0 := by
    rw [View.readAt_eq_ld, harg6.read_unread, View.ld_unit_zero hz2]
  have e7 : View.readAt (Elt F) arg7.view (Rect.unit ![0, 0] S1x1.size inb_S1x1_S1x1_0_0).toLoadRect (harg7.unread s1) = s1 := by
    rw [View.readAt_eq_ld, harg7.read_unread, View.ld_unit_zero hz2]
  have e8s : View.readAt (Elt F) arg8.view (Rect.unit (s := S1x8192) (k0_off1 i) S1x1024.size (k0_off1_inb i)).toLoadRect (harg8.unread s2) = View.ld s2 (rectC i) := by
    rw [View.readAt_eq_ld, harg8.read_unread]
  have c6 : ∀ w : S1024x1.Idx → Elt F .f32, arg6.view.readCov [(⟨Rect.unit ![0, 0] S1024x1.size inb_S1024x1_S1024x1_0_0, w⟩ : View.Piece (Elt F) S1024x1 .f32)] (Rect.unit ![0, 0] S1024x1.size inb_S1024x1_S1024x1_0_0).toLoadRect = w :=
    fun w => View.readCov_unit_zero arg6.view hz2 _ w
  have c7 : ∀ w : S1x1.Idx → Elt F .f32, arg7.view.readCov [(⟨Rect.unit ![0, 0] S1x1.size inb_S1x1_S1x1_0_0, w⟩ : View.Piece (Elt F) S1x1 .f32)] (Rect.unit ![0, 0] S1x1.size inb_S1x1_S1x1_0_0).toLoadRect = w :=
    fun w => View.readCov_unit_zero arg7.view hz2 _ w
  have e8w : ∀ g, View.readAt (Elt F) arg8.view (Rect.unit ![0, 0] S1x8192.size inb_S1x8192_S1x8192_0_0).toLoadRect g = arg8.view.read (Elt F) g := by
    intro g; rw [View.readAt_eq_ld, View.ld_unit_zero hz2]
  iapply Hk
  isplitl [H0]
  · iexists _; isplitr
    swap; · iexact H0
    ipureintro; exact harg3.read_unread _
  isplitl [H1]
  · iexists _; isplitr
    swap; · iexact H1
    ipureintro; exact harg4.read_unread _
  isplitl [H2]
  · iexists _; isplitr
    swap; · iexact H2
    ipureintro
    simp only [e3, e4, e6, e7, e8s, c6, c7, e8w]
    rw [View.read_writes_eq_canon _ _ _ (fun y => ⟨_, List.mem_singleton_self _, View.mem_set_unit_zero hz3 inb_S1x1x128_S1x1x128_0_0_0 y⟩), View.canon_unit_zero hz3]
    rfl
  isplitl [HS0]
  · iexists _; isplitr
    swap; · iexact HS0
    ipureintro
    simp only [e3, e4, e6]
    rw [View.read_writes_eq_canon _ _ _ (fun y => ⟨_, List.mem_singleton_self _, View.mem_set_unit_zero hz2 inb_S1024x1_S1024x1_0_0 y⟩), View.canon_unit_zero hz2]
  isplitl [HS1]
  · iexists _; isplitr
    swap; · iexact HS1
    ipureintro
    simp only [e3, e4, e6, e7, c6]
    rw [View.read_writes_eq_canon _ _ _ (fun y => ⟨_, List.mem_singleton_self _, View.mem_set_unit_zero hz2 inb_S1x1_S1x1_0_0 y⟩), View.canon_unit_zero hz2]
  · iexists _; isplitr
    swap; · iexact HS2
    ipureintro
    simp only [e3, e4, e8s]
    rfl

end Cert.Kernel.Body

end
-- ==== Proof.BitsBody.lean ====
/-
  The frame run of the Chamfer kernel, at any float instance, with what the kernel carries between grid points named.

  The grid's 256 points are run in order; point n = 64 b + 8 ni + mi. What the three scratch buffers hold after point n is
  defined by recursion on n from the body's own operations (`stAt`), starting from arbitrary contents. The kernel reads
  its scratch before ever storing it, but every such read is discarded by a select on the grid coordinate (mi = 0 for the
  row minima, ni = 0 for the column minima and for the running sum), so the state does not depend on the contents the
  scratch started with: after point n the row minima are exactly `stAt n`'s, the running sum is once n ≥ 7 (the first
  point that stores it), and the column minima are on the columns below 1024 (n + 1) (the y tiles visited so far; all of
  them once n ≥ 7). That is the invariant the region carries. The output block written at the last point of batch b is
  the two means formed from that state.
-/
import proofs.«178762_j53661321396251_1_alg».proof.Proof.Gen.Kernel.Frame
import proofs.«178762_j53661321396251_1_alg».proof.Proof.Gen.Kernel.Skeleton
import proofs.«178762_j53661321396251_1_alg».proof.Proof.BitsBodyRun
import Idealize.ShloMosaic.Lib.Pipeline.FrameBody
import Idealize.ShloMosaic.Lib.Pipeline.FrameSuffix
import Idealize.ShloMosaic.Lib.Pipeline.Value
import Idealize.ShloMosaic.Lib.WritesUnit
import Idealize.ShloMosaic.Lib.ValueIdx
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The grid in closed form -/

theorem coord1 : ∀ t : Fin cfg0.N, ((grid0.coords t) 1).val = t.val / 8 % 8 :=
  (by decide +kernel : ∀ t : Fin grid0.N, ((grid0.coords t) 1).val = t.val / 8 % 8)
theorem coord2 : ∀ t : Fin cfg0.N, ((grid0.coords t) 2).val = t.val % 8 :=
  (by decide +kernel : ∀ t : Fin grid0.N, ((grid0.coords t) 2).val = t.val % 8)
/-- The running sum is updated at the points ≡ 7 (mod 8). -/
theorem hLast : ∀ t : Fin cfg0.N, condLast (grid0.coords t) ↔ t.val % 8 = 7 :=
  (by decide +kernel : ∀ t : Fin grid0.N, condLast (grid0.coords t) ↔ t.val % 8 = 7)
/-- The output block is written at the points ≡ 63 (mod 64). -/
theorem hFlush : ∀ t : Fin cfg0.N, condFlush (grid0.coords t) ↔ t.val % 64 = 63 :=
  (by decide +kernel : ∀ t : Fin grid0.N, condFlush (grid0.coords t) ↔ t.val % 64 = 63)

theorem liveAt0 : ∀ t : Fin cfg0.N, cfg0.idle 0 (grid0.coords t) = false := by decide +kernel
theorem liveAt1 : ∀ t : Fin cfg0.N, cfg0.idle 1 (grid0.coords t) = false := by decide +kernel
theorem idleAt2 : ∀ t : Fin cfg0.N, ¬condFlush (grid0.coords t) → cfg0.idle 2 (grid0.coords t) = true := by decide +kernel
theorem noFlush2 : ∀ t : Fin cfg0.N, ¬condFlush (grid0.coords t) → (cfg0.win 2).flush t = false := by decide +kernel
theorem liveAt2 : ∀ t : Fin cfg0.N, condFlush (grid0.coords t) → cfg0.idle 2 (grid0.coords t) = false := by decide +kernel

/-! ## The memrefs the body is called with -/

abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x128 .f32 := win0_2.stage (cfg0.slots t 2)
abbrev hs2 (t : Fin cfg0.N) : (ms2 t).IsWhole := hstage0_2 ((cfg0.slots t 2).cast nbuf0_2)
abbrev scM0 : Memref sig .tc .vmem S1024x1 .f32 := Memref.whole cc0_scratch0
abbrev scM1 : Memref sig .tc .vmem S1x1 .f32 := Memref.whole cc0_scratch1
abbrev scM2 : Memref sig .tc .vmem S1x8192 .f32 := Memref.whole cc0_scratch2
abbrev hsc2 : (scM2 : Memref sig .tc .vmem S1x8192 .f32).IsWhole := Memref.isWhole_whole cc0_scratch2

/-- The class invariant with the three scratch buffers as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## The selects discard what the scratch held -/

theorem pay6_first (i : grid0.Coords) (hi : (i 2).val = 0) (x0 y0 : Vec F S1x1024x3 .f32) (s s' : Vec F S1024x1 .f32) :
    k0_pay6 i x0 y0 s = k0_pay6 i x0 y0 s' := by
  have hb : Scalar.cmpi .eq (BitVec.ofNat 32 (i 2).val) 0#32 = 1#1 := by rw [hi]; rfl
  unfold k0_pay6
  simp only [hb, select_one]

theorem pay1_first (n : ℕ) (hn : n = 0) (cm : FVec F S1x1024 .f32) (a b : Vec F S1x1024 .f32) :
    k0_pay1 cm a (Scalar.cmpi .eq (BitVec.ofNat 32 n) 0#32) = k0_pay1 cm b (Scalar.cmpi .eq (BitVec.ofNat 32 n) 0#32) := by
  have hb : Scalar.cmpi .eq (BitVec.ofNat 32 n) 0#32 = 1#1 := by rw [hn]; rfl
  unfold k0_pay1
  simp only [hb, select_one]

theorem pay2_first (n : ℕ) (hn : n = 0) (r : Vec F S1024x1 .f32) (a b : Vec F S1x1 .f32) :
    k0_pay2 (BitVec.ofNat 32 n) r a = k0_pay2 (BitVec.ofNat 32 n) r b := by
  have hb : Scalar.cmpi .eq (BitVec.ofNat 32 n) 0#32 = 1#1 := by rw [hn]; rfl
  unfold k0_pay2
  simp only [hb, select_one]

/-! ## The column minima after a point, column by column -/

theorem colStep_in (arg8 : Memref sig .tc .vmem S1x8192 .f32) (harg8 : arg8.IsWhole) (i : grid0.Coords)
    (x0 y0 : Vec F S1x1024x3 .f32) (s2 : Vec F S1x8192 .f32) (y : S1x8192.Idx) (x : S1x1024.Idx)
    (h0 : (y 0).val = (x 0).val) (h1 : (y 1).val = 1024 * (i 2).val + (x 1).val) :
    colStep arg8 harg8 i x0 y0 s2 y
      = k0_pay1 (k0_pay5 x0 y0) (View.ld s2 (rectC i)) (Scalar.cmpi .eq (BitVec.ofNat 32 (i 1).val) 0#32) x := by
  unfold colStep
  exact View.read_writes_cons_unit_of_mem arg8.view _ (k0_off1_inb i) _ [] y x (k0_off1_eq i)
    (Fin.forall_fin_two.mpr ⟨by show (y 0).val = 0 + (x 0).val; omega, by show (y 1).val = 1024 * (i 2).val + (x 1).val; exact h1⟩)

theorem colStep_out (arg8 : Memref sig .tc .vmem S1x8192 .f32) (harg8 : arg8.IsWhole) (i : grid0.Coords)
    (x0 y0 : Vec F S1x1024x3 .f32) (s2 : Vec F S1x8192 .f32) (y : S1x8192.Idx)
    (h : (y 1).val < 1024 * (i 2).val ∨ 1024 * (i 2).val + 1024 ≤ (y 1).val) :
    colStep arg8 harg8 i x0 y0 s2 y = s2 y := by
  unfold colStep
  rw [View.read_writes_cons_unit_of_not_mem arg8.view _ (k0_off1_inb i) _ [] y (k0_off1_eq i) 1
    (by show (y 1).val < 1024 * (i 2).val ∨ 1024 * (i 2).val + 1024 ≤ (y 1).val; exact h)]
  rw [View.writes_nil, harg8.read_unread]

/-! ## What the scratch holds after each point -/

/-- The row minima, the running sum, the column minima. -/
abbrev St (F : FTy → Type) [FloatOps F] : Type := Vec F S1024x1 .f32 × Vec F S1x1 .f32 × Vec F S1x8192 .f32

def jnk : St F := (fun _ => (Elt.inhabited F .f32).default, fun _ => (Elt.inhabited F .f32).default, fun _ => (Elt.inhabited F .f32).default)

/-- One point's effect on the scratch. -/
def stepAt (c : Dev nD) (t : Fin cfg0.N) (s : St F) : St F :=
  (k0_pay6 (grid0.coords t) (iblk m c 0 t) (iblk m c 1 t) s.1,
   if t.val % 8 = 7 then k0_pay2 (BitVec.ofNat 32 ((grid0.coords t) 1).val) (k0_pay6 (grid0.coords t) (iblk m c 0 t) (iblk m c 1 t) s.1) s.2.1 else s.2.1,
   colStep scM2 hsc2 (grid0.coords t) (iblk m c 0 t) (iblk m c 1 t) s.2.2)

/-- The scratch after point `n`, from arbitrary contents before point 0. -/
def stAt (c : Dev nD) : (n : ℕ) → n < cfg0.N → St F
  | 0, h => stepAt m c ⟨0, h⟩ jnk
  | n + 1, h => stepAt m c ⟨n + 1, h⟩ (stAt c n (Nat.lt_of_succ_lt h))

/-- The scratch before point `n`. -/
def prevAt (c : Dev nD) (n : ℕ) (h : n < cfg0.N) : St F :=
  if hz : n = 0 then jnk else stAt m c (n - 1) (by omega)

theorem prevAt_pos (c : Dev nD) (n : ℕ) (h : n < cfg0.N) (hz : n ≠ 0) : prevAt m c n h = stAt m c (n - 1) (by omega) := dif_neg hz

theorem stAt_eq (c : Dev nD) (n : ℕ) (h : n < cfg0.N) : stAt m c n h = stepAt m c ⟨n, h⟩ (prevAt m c n h) := by
  cases n with
  | zero => rfl
  | succ n => rw [prevAt_pos m c _ _ (Nat.succ_ne_zero n)]; rfl

theorem stAt_1 (c : Dev nD) (t : Fin cfg0.N) :
    (stAt m c t.val t.isLt).1 = k0_pay6 (grid0.coords t) (iblk m c 0 t) (iblk m c 1 t) (prevAt m c t.val t.isLt).1 := by
  rw [stAt_eq]; rfl
theorem stAt_2 (c : Dev nD) (t : Fin cfg0.N) :
    (stAt m c t.val t.isLt).2.1 = if t.val % 8 = 7 then k0_pay2 (BitVec.ofNat 32 ((grid0.coords t) 1).val) (k0_pay6 (grid0.coords t) (iblk m c 0 t) (iblk m c 1 t) (prevAt m c t.val t.isLt).1) (prevAt m c t.val t.isLt).2.1 else (prevAt m c t.val t.isLt).2.1 := by
  rw [stAt_eq]; rfl
theorem stAt_3' (c : Dev nD) (n : ℕ) (h : n < cfg0.N) :
    (stAt m c n h).2.2 = colStep scM2 hsc2 (grid0.coords ⟨n, h⟩) (iblk m c 0 ⟨n, h⟩) (iblk m c 1 ⟨n, h⟩) (prevAt m c n h).2.2 := by
  rw [stAt_eq]; unfold stepAt; dsimp only
theorem stAt_3 (c : Dev nD) (t : Fin cfg0.N) :
    (stAt m c t.val t.isLt).2.2 = colStep scM2 hsc2 (grid0.coords t) (iblk m c 0 t) (iblk m c 1 t) (prevAt m c t.val t.isLt).2.2 := by
  obtain ⟨n, h⟩ := t
  exact stAt_3' m c n h

/-- What is known of the scratch after point `n`, whatever it held before point 0. -/
def Inv (c : Dev nD) (n : ℕ) (h : n < cfg0.N) (s0 : Vec F S1024x1 .f32) (s1 : Vec F S1x1 .f32) (s2 : Vec F S1x8192 .f32) : Prop :=
  s0 = (stAt m c n h).1 ∧ (7 ≤ n → s1 = (stAt m c n h).2.1) ∧ ∀ y : S1x8192.Idx, (y 1).val < (n + 1) * 1024 → s2 y = (stAt m c n h).2.2 y

set_option maxHeartbeats 1000000 in
/-- The invariant is kept by every point. -/
theorem inv_step (c : Dev nD) (t : Fin cfg0.N) (s0 : Vec F S1024x1 .f32) (s1 : Vec F S1x1 .f32) (s2 : Vec F S1x8192 .f32)
    (hprev : ∀ hz : t.val ≠ 0, Inv m c (t.val - 1) (by have := t.isLt; omega) s0 s1 s2) :
    Inv m c t.val t.isLt
      (k0_pay6 (grid0.coords t) (iblk m c 0 t) (iblk m c 1 t) s0)
      (if t.val % 8 = 7 then k0_pay2 (BitVec.ofNat 32 ((grid0.coords t) 1).val) (k0_pay6 (grid0.coords t) (iblk m c 0 t) (iblk m c 1 t) s0) s1 else s1)
      (colStep scM2 hsc2 (grid0.coords t) (iblk m c 0 t) (iblk m c 1 t) s2) := by
  have hN : t.val < 256 := lt_of_lt_of_eq t.isLt (show cfg0.N = 256 from N_0)
  have h1 := coord1 t
  have h2 := coord2 t
  have r0 : k0_pay6 (grid0.coords t) (iblk m c 0 t) (iblk m c 1 t) s0 = (stAt m c t.val t.isLt).1 := by
    rw [stAt_1]
    by_cases hz : t.val = 0
    · exact pay6_first _ (by rw [h2, hz]) _ _ _ _
    · rw [(hprev hz).1, prevAt_pos m c _ _ hz]
  refine ⟨r0, ?_, ?_⟩
  · intro h7
    rw [stAt_2]
    by_cases hl : t.val % 8 = 7
    · rw [if_pos hl, if_pos hl, ← stAt_1, ← r0]
      by_cases hni : ((grid0.coords t) 1).val = 0
      · exact pay2_first _ hni _ _ _
      · have hz : t.val ≠ 0 := by omega
        have h7' : 7 ≤ t.val - 1 := by rw [h1] at hni; omega
        rw [(hprev hz).2.1 h7', prevAt_pos m c _ _ hz]
    · rw [if_neg hl, if_neg hl]
      have hz : t.val ≠ 0 := by omega
      have h7' : 7 ≤ t.val - 1 := by omega
      rw [(hprev hz).2.1 h7', prevAt_pos m c _ _ hz]
  · intro y hy
    rw [stAt_3]
    have hy1 : (y 1).val < 8192 := (y 1).isLt
    have hy0 : (y 0).val < 1 := (y 0).isLt
    by_cases hin : 1024 * (t.val % 8) ≤ (y 1).val ∧ (y 1).val < 1024 * (t.val % 8) + 1024
    · have hx : ∃ x : S1x1024.Idx, (y 0).val = (x 0).val ∧ (y 1).val = 1024 * ((grid0.coords t) 2).val + (x 1).val :=
        ⟨ix2 ⟨0, by decide⟩ ⟨(y 1).val - 1024 * (t.val % 8), by omega⟩, by show (y 0).val = 0; omega,
          by show (y 1).val = 1024 * ((grid0.coords t) 2).val + ((y 1).val - 1024 * (t.val % 8)); rw [h2]; omega⟩
      obtain ⟨x, hx0, hx1⟩ := hx
      rw [colStep_in _ _ _ _ _ _ y x hx0 hx1, colStep_in _ _ _ _ _ _ y x hx0 hx1]
      by_cases hni : ((grid0.coords t) 1).val = 0
      · exact congrFun (pay1_first _ hni _ _ _) x
      · have hz : t.val ≠ 0 := by rw [h1] at hni; omega
        have hs : s2 = (prevAt m c t.val t.isLt).2.2 := by
          funext y'
          have hy1' : (y' 1).val < 8192 := (y' 1).isLt
          rw [prevAt_pos m c _ _ hz]
          exact (hprev hz).2.2 y' (by rw [h1] at hni; omega)
        rw [hs]
    · rw [colStep_out _ _ _ _ _ _ y (by rw [h2]; omega), colStep_out _ _ _ _ _ _ y (by rw [h2]; omega)]
      have hz : t.val ≠ 0 := by intro hz; rw [hz] at hin hy; omega
      rw [prevAt_pos m c _ _ hz]
      exact (hprev hz).2.2 y (by omega)

/-! ## The region's invariant and the proof data -/

/-- Before point `n`: at point 0 the scratch holds anything; afterwards it satisfies the invariant of the point before. -/
def PhiS (c : Dev nD) (n : ℕ) (hn : n ≤ cfg0.N) : sProp 𝕄 :=
  if hz : n = 0 then Pipeline.ΦA spec0 c
  else iprop((∃ s0 s1 s2, ⌜Inv m c (n - 1) (by omega) s0 s1 s2⌝ ∗ owns (c : Thread nD τ) scM0 fullShare s0
      ∗ owns (c : Thread nD τ) scM1 fullShare s1 ∗ owns (c : Thread nD τ) scM2 fullShare s2) ∗ (∃ r, prngReg c r))

theorem PhiS_zero (c : Dev nD) (n : ℕ) (h : n ≤ cfg0.N) (hz : n = 0) : PhiS m c n h = Pipeline.ΦA spec0 c := dif_pos hz

theorem PhiS_pos (c : Dev nD) (n : ℕ) (h : n ≤ cfg0.N) (hz : n ≠ 0) :
    PhiS m c n h = iprop((∃ s0 s1 s2, ⌜Inv m c (n - 1) (by omega) s0 s1 s2⌝ ∗ owns (c : Thread nD τ) scM0 fullShare s0
      ∗ owns (c : Thread nD τ) scM1 fullShare s1 ∗ owns (c : Thread nD τ) scM2 fullShare s2) ∗ (∃ r, prngReg c r)) := dif_neg hz

theorem PhiS_succ (c : Dev nD) (n : ℕ) (hn : n < cfg0.N) :
    PhiS m c (n + 1) hn = iprop((∃ s0 s1 s2, ⌜Inv m c n hn s0 s1 s2⌝ ∗ owns (c : Thread nD τ) scM0 fullShare s0
      ∗ owns (c : Thread nD τ) scM1 fullShare s1 ∗ owns (c : Thread nD τ) scM2 fullShare s2) ∗ (∃ r, prngReg c r)) :=
  dif_neg (Nat.succ_ne_zero n)

/-- The proof data: the arrays as the region finds them; each input's buffer left at its block; the output's buffer left
    at the two means formed from the state after the point (read only where the block is written back: the last point of
    a batch); the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (stAt m c t.val t.isLt).2.1 (stAt m c t.val t.isLt).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = k0_pay3 (stAt m c t.val t.isLt).2.1 (stAt m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the invariant hands it the scratch (at anything before point 0, else at contents satisfying
    the invariant of the point before) and takes it back at contents satisfying this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [PhiS_castSucc m c t]
  rw [show (dats m 0 c).leavesExact 0 t = owns (c : Thread nD τ) (ms0 t) fullShare ((dats m 0 c).after 0 t) from by
    unfold Dat.leavesExact; rw [liveAt0 t], after0_0]
  rw [show (dats m 0 c).leavesExact 1 t = owns (c : Thread nD τ) (ms1 t) fullShare ((dats m 0 c).after 1 t) from by
    unfold Dat.leavesExact; rw [liveAt1 t], after0_1]
  have hN : t.val < 256 := lt_of_lt_of_eq t.isLt (show cfg0.N = 256 from N_0)
  by_cases hl : t.val % 8 = 7
  · have hz : t.val ≠ 0 := by omega
    rw [PhiS_pos m c _ _ hz]
    by_cases hf : t.val % 64 = 63
    · rw [show (dats m 0 c).leavesExact 2 t = owns (c : Thread nD τ) (ms2 t) fullShare ((dats m 0 c).after 2 t) from by
        unfold Dat.leavesExact; rw [liveAt2 t ((hFlush t).mpr hf)], after0_2]
      iintro ⟨⟨⟨%s0, %s1, %s2, %hI, HS0, HS1, HS2⟩, Hg⟩, Ho, ⟨%d0, H0⟩, ⟨%d1, H1⟩, ⟨%d2, H2⟩⟩
      have I := inv_step m c t s0 s1 s2 (fun _ => hI)
      rw [if_pos hl] at I
      have e1 := I.2.1 (by omega)
      have e2 : colStep scM2 hsc2 (grid0.coords t) (iblk m c 0 t) (iblk m c 1 t) s2 = (stAt m c t.val t.isLt).2.2 :=
        funext fun y => I.2.2 y (by have hy1 : (y 1).val < 8192 := (y 1).isLt; omega)
      rw [← e1, ← e2]
      iapply (run_flush c (grid0.coords t) (ms0 t) (hs0 t) (ms1 t) (hs1 t) (ms2 t) (hs2 t) scM0 (Memref.isWhole_whole _) scM1 (Memref.isWhole_whole _) scM2 (Memref.isWhole_whole _)
        ((hLast t).mpr hl) ((hFlush t).mpr hf) (iblk m c 0 t) (iblk m c 1 t) _ s0 s1 s2 Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitr [Hg]
        · iexists _, _, _; isplitr; · ipureintro; exact I
          isplitl [HS0]; · iexact HS0
          isplitl [HS1]; · iexact HS1
          iexact HS2
        · iexact Hg
      isplitl [Ho]; · iexact Ho
      isplitl [H0]; · iexact H0
      isplitl [H1]; · iexact H1
      iexact H2
    · rw [Dat.leavesExact_idle (dats m 0 c) 2 t (idleAt2 t (fun h => hf ((hFlush t).mp h))) (noFlush2 t (fun h => hf ((hFlush t).mp h)))]
      iintro ⟨⟨⟨%s0, %s1, %s2, %hI, HS0, HS1, HS2⟩, Hg⟩, Ho, ⟨%d0, H0⟩, ⟨%d1, H1⟩, ⟨%d2, H2⟩⟩
      have I := inv_step m c t s0 s1 s2 (fun _ => hI)
      rw [if_pos hl] at I
      iapply (run_last c (grid0.coords t) (ms0 t) (hs0 t) (ms1 t) (hs1 t) (ms2 t) (hs2 t) scM0 (Memref.isWhole_whole _) scM1 (Memref.isWhole_whole _) scM2 (Memref.isWhole_whole _)
        ((hLast t).mpr hl) (fun h => hf ((hFlush t).mp h)) (iblk m c 0 t) (iblk m c 1 t) _ s0 s1 s2 Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitr [Hg]
        · iexists _, _, _; isplitr; · ipureintro; exact I
          isplitl [HS0]; · iexact HS0
          isplitl [HS1]; · iexact HS1
          iexact HS2
        · iexact Hg
      isplitl [Ho]; · iexact Ho
      isplitl [H0]; · iexact H0
      isplitl [H1]; · iexact H1
      iexists _; iexact H2
  · have hf : ¬t.val % 64 = 63 := by omega
    rw [Dat.leavesExact_idle (dats m 0 c) 2 t (idleAt2 t (fun h => hf ((hFlush t).mp h))) (noFlush2 t (fun h => hf ((hFlush t).mp h)))]
    by_cases hz : t.val = 0
    · rw [PhiS_zero m c _ _ hz, PhiA0_eq]
      iintro ⟨⟨⟨⟨%s0, HS0⟩, ⟨%s1, HS1⟩, ⟨%s2, HS2⟩⟩, Hg⟩, Ho, ⟨%d0, H0⟩, ⟨%d1, H1⟩, ⟨%d2, H2⟩⟩
      have I := inv_step m c t s0 s1 s2 (fun hz' => absurd hz hz')
      rw [if_neg hl] at I
      iapply (run_mid c (grid0.coords t) (ms0 t) (hs0 t) (ms1 t) (hs1 t) (ms2 t) (hs2 t) scM0 (Memref.isWhole_whole _) scM1 (Memref.isWhole_whole _) scM2 (Memref.isWhole_whole _)
        (fun h => hl ((hLast t).mp h)) (fun h => hf ((hFlush t).mp h)) (iblk m c 0 t) (iblk m c 1 t) _ s0 s1 s2 Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitr [Hg]
        · iexists _, _, _; isplitr; · ipureintro; exact I
          isplitl [HS0]; · iexact HS0
          isplitl [HS1]; · iexact HS1
          iexact HS2
        · iexact Hg
      isplitl [Ho]; · iexact Ho
      isplitl [H0]; · iexact H0
      isplitl [H1]; · iexact H1
      iexists _; iexact H2
    · rw [PhiS_pos m c _ _ hz]
      iintro ⟨⟨⟨%s0, %s1, %s2, %hI, HS0, HS1, HS2⟩, Hg⟩, Ho, ⟨%d0, H0⟩, ⟨%d1, H1⟩, ⟨%d2, H2⟩⟩
      have I := inv_step m c t s0 s1 s2 (fun _ => hI)
      rw [if_neg hl] at I
      iapply (run_mid c (grid0.coords t) (ms0 t) (hs0 t) (ms1 t) (hs1 t) (ms2 t) (hs2 t) scM0 (Memref.isWhole_whole _) scM1 (Memref.isWhole_whole _) scM2 (Memref.isWhole_whole _)
        (fun h => hl ((hLast t).mp h)) (fun h => hf ((hFlush t).mp h)) (iblk m c 0 t) (iblk m c 1 t) _ s0 s1 s2 Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitr [Hg]
        · iexists _, _, _; isplitr; · ipureintro; exact I
          isplitl [HS0]; · iexact HS0
          isplitl [HS1]; · iexact HS1
          iexact HS2
        · iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), PhiA0_eq]
  iintro ⟨⟨%s0, %s1, %s2, %hI, HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealBodyRun.lean ====
/-
  One grid point of the Chamfer kernel as a Hoare triple, at any float instance.

  A grid point (b, ni, mi) sees the ni-th tile of 1024 points of x[b] and the mi-th tile of 1024 points of y[b], forms the
  1024 x 1024 tile of clamped squared distances, and folds it into three running quantities the kernel keeps between points:
  the row minima of the current x tile over the y tiles seen so far (a 1024 x 1 column), the column minima of every y tile
  over the x tiles seen so far (a 1 x 8192 row, of which the point touches only the 1024 columns of its own y tile), and the
  running sum of finished row minima (a 1 x 1 cell, touched only at the last y tile). At the very last point of a batch the
  two means are formed and written to the output block. The three triples below say, case by case of the two branches,
  what each buffer holds after the point as a function of what it held before.
-/
import proofs.«178762_j53661321396251_1_alg».proof.Proof.Gen.KernelIdeal.Frame
import proofs.«178762_j53661321396251_1_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.WritesUnit
import Idealize.ShloMosaic.Lib.ValueIdx
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets, however they are spelt. -/
theorem hz2 : (![0, 0] : Fin 2 → ℕ) = fun _ => 0 := by funext a; fin_cases a <;> rfl
theorem hz3 : (![0, 0, 0] : Fin 3 → ℕ) = fun _ => 0 := by funext a; fin_cases a <;> rfl

/-- The point is at the last y tile (mi = 7): the running sum is updated there. -/
abbrev condLast (i : grid0.Coords) : Prop := (Scalar.cmpi .ne (Scalar.extui (Scalar.cmpi .eq (BitVec.ofNat 32 (i 2).val) 7#32)) 0#32) = 1#1
/-- The point is the last of its batch (ni = 7 and mi = 7): the output block is written there. -/
abbrev condFlush (i : grid0.Coords) : Prop := k0_cond2 i = 1#1

/-- The 1024 columns of the running column minima that belong to the point's y tile. -/
abbrev rectC (i : grid0.Coords) : Rect S1x8192 := Rect.unit (s := S1x8192) (k0_off1 i) S1x1024.size (k0_off1_inb i)

/-- The running column minima after the point: the columns of the point's y tile replaced by the fold of the tile's column
    minima into what they held, every other column untouched. -/
def colStep (arg8 : Memref sig .tc .vmem S1x8192 .f32) (harg8 : arg8.IsWhole) (i : grid0.Coords)
    (x0 y0 : Vec F S1x1024x3 .f32) (s2 : Vec F S1x8192 .f32) : Vec F S1x8192 .f32 :=
  arg8.view.read (Elt F) (arg8.view.writes (Elt F) (harg8.unread s2)
    [⟨rectC i, k0_pay1 (k0_pay5 x0 y0) (View.ld s2 (rectC i)) (Scalar.cmpi .eq (BitVec.ofNat 32 (i 1).val) 0#32)⟩])

set_option maxHeartbeats 1000000 in
/-- A point that is not at the last y tile: the row minima and the point's columns of the column minima are folded; the running sum and the output block are left as they were. -/
theorem run_mid (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x128 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1x8192 .f32) (harg8 : arg8.IsWhole) (hc0 : ¬condLast i) (hc1 : ¬condFlush i)
    (x0 y0 : Vec F S1x1024x3 .f32) (o : Vec F S1x1x128 .f32) (s0 : Vec F S1024x1 .f32) (s1 : Vec F S1x1 .f32) (s2 : Vec F S1x8192 .f32)
    (E : Set ℕ) (K : PUnit → sProp 𝕄) :
    iprop(owns (c : Thread nD τ) arg3 fullShare x0 ∗ owns (c : Thread nD τ) arg4 fullShare y0 ∗ owns (c : Thread nD τ) arg5 fullShare o
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare y0 ∗ owns (c : Thread nD τ) arg5 fullShare o
        ∗ owns (c : Thread nD τ) arg6 fullShare (k0_pay6 i x0 y0 s0) ∗ owns (c : Thread nD τ) arg7 fullShare s1
        ∗ owns (c : Thread nD τ) arg8 fullShare (colStep arg8 harg8 i x0 y0 s2)) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg6.eq_unread hfs0; obtain rfl := harg7.eq_unread hfs1; obtain rfl := harg8.eq_unread hfs2
  sl_exec (disch := first | exact hc0 | exact hc1)
  sl_step
  sl_unfold_run_names
  have e3 : View.readAt (Elt F) arg3.view (Rect.unit ![0, 0, 0] S1x1024x3.size inb_S1x1024x3_S1x1024x3_0_0_0).toLoadRect (harg3.unread x0) = x0 := by
    rw [View.readAt_eq_ld, harg3.read_unread, View.ld_unit_zero hz3]
  have e4 : View.readAt (Elt F) arg4.view (Rect.unit ![0, 0, 0] S1x1024x3.size inb_S1x1024x3_S1x1024x3_0_0_0).toLoadRect (harg4.unread y0) = y0 := by
    rw [View.readAt_eq_ld, harg4.read_unread, View.ld_unit_zero hz3]
  have e6 : View.readAt (Elt F) arg6.view (Rect.unit ![0, 0] S1024x1.size inb_S1024x1_S1024x1_0_0).toLoadRect (harg6.unread s0) = s0 := by
    rw [View.readAt_eq_ld, harg6.read_unread, View.ld_unit_zero hz2]
  have e7 : View.readAt (Elt F) arg7.view (Rect.unit ![0, 0] S1x1.size inb_S1x1_S1x1_0_0).toLoadRect (harg7.unread s1) = s1 := by
    rw [View.readAt_eq_ld, harg7.read_unread, View.ld_unit_zero hz2]
  have e8s : View.readAt (Elt F) arg8.view (Rect.unit (s := S1x8192) (k0_off1 i) S1x1024.size (k0_off1_inb i)).toLoadRect (harg8.unread s2) = View.ld s2 (rectC i) := by
    rw [View.readAt_eq_ld, harg8.read_unread]
  have c6 : ∀ w : S1024x1.Idx → Elt F .f32, arg6.view.readCov [(⟨Rect.unit ![0, 0] S1024x1.size inb_S1024x1_S1024x1_0_0, w⟩ : View.Piece (Elt F) S1024x1 .f32)] (Rect.unit ![0, 0] S1024x1.size inb_S1024x1_S1024x1_0_0).toLoadRect = w :=
    fun w => View.readCov_unit_zero arg6.view hz2 _ w
  have c7 : ∀ w : S1x1.Idx → Elt F .f32, arg7.view.readCov [(⟨Rect.unit ![0, 0] S1x1.size inb_S1x1_S1x1_0_0, w⟩ : View.Piece (Elt F) S1x1 .f32)] (Rect.unit ![0, 0] S1x1.size inb_S1x1_S1x1_0_0).toLoadRect = w :=
    fun w => View.readCov_unit_zero arg7.view hz2 _ w
  have e8w : ∀ g, View.readAt (Elt F) arg8.view (Rect.unit ![0, 0] S1x8192.size inb_S1x8192_S1x8192_0_0).toLoadRect g = arg8.view.read (Elt F) g := by
    intro g; rw [View.readAt_eq_ld, View.ld_unit_zero hz2]
  iapply Hk
  isplitl [H0]
  · iexists _; isplitr
    swap; · iexact H0
    ipureintro; exact harg3.read_unread _
  isplitl [H1]
  · iexists _; isplitr
    swap; · iexact H1
    ipureintro; exact harg4.read_unread _
  isplitl [H2]
  · iexists _; isplitr
    swap; · iexact H2
    ipureintro; exact harg5.read_unread _
  isplitl [HS0]
  · iexists _; isplitr
    swap; · iexact HS0
    ipureintro
    simp only [e3, e4, e6]
    rw [View.read_writes_eq_canon _ _ _ (fun y => ⟨_, List.mem_singleton_self _, View.mem_set_unit_zero hz2 inb_S1024x1_S1024x1_0_0 y⟩), View.canon_unit_zero hz2]
  isplitl [HS1]
  · iexists _; isplitr
    swap; · iexact HS1
    ipureintro; exact harg7.read_unread _
  · iexists _; isplitr
    swap; · iexact HS2
    ipureintro
    simp only [e3, e4, e8s]
    rfl

set_option maxHeartbeats 1000000 in
/-- A point at the last y tile that does not end its batch: as before, and the finished row minima are summed into the running sum. -/
theorem run_last (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x128 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1x8192 .f32) (harg8 : arg8.IsWhole) (hc0 : condLast i) (hc1 : ¬condFlush i)
    (x0 y0 : Vec F S1x1024x3 .f32) (o : Vec F S1x1x128 .f32) (s0 : Vec F S1024x1 .f32) (s1 : Vec F S1x1 .f32) (s2 : Vec F S1x8192 .f32)
    (E : Set ℕ) (K : PUnit → sProp 𝕄) :
    iprop(owns (c : Thread nD τ) arg3 fullShare x0 ∗ owns (c : Thread nD τ) arg4 fullShare y0 ∗ owns (c : Thread nD τ) arg5 fullShare o
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare y0 ∗ owns (c : Thread nD τ) arg5 fullShare o
        ∗ owns (c : Thread nD τ) arg6 fullShare (k0_pay6 i x0 y0 s0) ∗ owns (c : Thread nD τ) arg7 fullShare (k0_pay2 (BitVec.ofNat 32 (i 1).val) (k0_pay6 i x0 y0 s0) s1)
        ∗ owns (c : Thread nD τ) arg8 fullShare (colStep arg8 harg8 i x0 y0 s2)) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg6.eq_unread hfs0; obtain rfl := harg7.eq_unread hfs1; obtain rfl := harg8.eq_unread hfs2
  sl_exec (disch := first | exact hc0 | exact hc1)
  sl_step
  sl_unfold_run_names
  have e3 : View.readAt (Elt F) arg3.view (Rect.unit ![0, 0, 0] S1x1024x3.size inb_S1x1024x3_S1x1024x3_0_0_0).toLoadRect (harg3.unread x0) = x0 := by
    rw [View.readAt_eq_ld, harg3.read_unread, View.ld_unit_zero hz3]
  have e4 : View.readAt (Elt F) arg4.view (Rect.unit ![0, 0, 0] S1x1024x3.size inb_S1x1024x3_S1x1024x3_0_0_0).toLoadRect (harg4.unread y0) = y0 := by
    rw [View.readAt_eq_ld, harg4.read_unread, View.ld_unit_zero hz3]
  have e6 : View.readAt (Elt F) arg6.view (Rect.unit ![0, 0] S1024x1.size inb_S1024x1_S1024x1_0_0).toLoadRect (harg6.unread s0) = s0 := by
    rw [View.readAt_eq_ld, harg6.read_unread, View.ld_unit_zero hz2]
  have e7 : View.readAt (Elt F) arg7.view (Rect.unit ![0, 0] S1x1.size inb_S1x1_S1x1_0_0).toLoadRect (harg7.unread s1) = s1 := by
    rw [View.readAt_eq_ld, harg7.read_unread, View.ld_unit_zero hz2]
  have e8s : View.readAt (Elt F) arg8.view (Rect.unit (s := S1x8192) (k0_off1 i) S1x1024.size (k0_off1_inb i)).toLoadRect (harg8.unread s2) = View.ld s2 (rectC i) := by
    rw [View.readAt_eq_ld, harg8.read_unread]
  have c6 : ∀ w : S1024x1.Idx → Elt F .f32, arg6.view.readCov [(⟨Rect.unit ![0, 0] S1024x1.size inb_S1024x1_S1024x1_0_0, w⟩ : View.Piece (Elt F) S1024x1 .f32)] (Rect.unit ![0, 0] S1024x1.size inb_S1024x1_S1024x1_0_0).toLoadRect = w :=
    fun w => View.readCov_unit_zero arg6.view hz2 _ w
  have c7 : ∀ w : S1x1.Idx → Elt F .f32, arg7.view.readCov [(⟨Rect.unit ![0, 0] S1x1.size inb_S1x1_S1x1_0_0, w⟩ : View.Piece (Elt F) S1x1 .f32)] (Rect.unit ![0, 0] S1x1.size inb_S1x1_S1x1_0_0).toLoadRect = w :=
    fun w => View.readCov_unit_zero arg7.view hz2 _ w
  have e8w : ∀ g, View.readAt (Elt F) arg8.view (Rect.unit ![0, 0] S1x8192.size inb_S1x8192_S1x8192_0_0).toLoadRect g = arg8.view.read (Elt F) g := by
    intro g; rw [View.readAt_eq_ld, View.ld_unit_zero hz2]
  iapply Hk
  isplitl [H0]
  · iexists _; isplitr
    swap; · iexact H0
    ipureintro; exact harg3.read_unread _
  isplitl [H1]
  · iexists _; isplitr
    swap; · iexact H1
    ipureintro; exact harg4.read_unread _
  isplitl [H2]
  · iexists _; isplitr
    swap; · iexact H2
    ipureintro; exact harg5.read_unread _
  isplitl [HS0]
  · iexists _; isplitr
    swap; · iexact HS0
    ipureintro
    simp only [e3, e4, e6]
    rw [View.read_writes_eq_canon _ _ _ (fun y => ⟨_, List.mem_singleton_self _, View.mem_set_unit_zero hz2 inb_S1024x1_S1024x1_0_0 y⟩), View.canon_unit_zero hz2]
  isplitl [HS1]
  · iexists _; isplitr
    swap; · iexact HS1
    ipureintro
    simp only [e3, e4, e6, e7, c6]
    rw [View.read_writes_eq_canon _ _ _ (fun y => ⟨_, List.mem_singleton_self _, View.mem_set_unit_zero hz2 inb_S1x1_S1x1_0_0 y⟩), View.canon_unit_zero hz2]
  · iexists _; isplitr
    swap; · iexact HS2
    ipureintro
    simp only [e3, e4, e8s]
    rfl

set_option maxHeartbeats 1000000 in
/-- The last point of a batch: as before, and the output block receives the two means formed from the running sum and the finished column minima. -/
theorem run_flush (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x128 .f32) (harg5 : arg5.IsWhole) (arg6 : Memref sig .tc .vmem S1024x1 .f32) (harg6 : arg6.IsWhole) (arg7 : Memref sig .tc .vmem S1x1 .f32) (harg7 : arg7.IsWhole) (arg8 : Memref sig .tc .vmem S1x8192 .f32) (harg8 : arg8.IsWhole) (hc0 : condLast i) (hc1 : condFlush i)
    (x0 y0 : Vec F S1x1024x3 .f32) (o : Vec F S1x1x128 .f32) (s0 : Vec F S1024x1 .f32) (s1 : Vec F S1x1 .f32) (s2 : Vec F S1x8192 .f32)
    (E : Set ℕ) (K : PUnit → sProp 𝕄) :
    iprop(owns (c : Thread nD τ) arg3 fullShare x0 ∗ owns (c : Thread nD τ) arg4 fullShare y0 ∗ owns (c : Thread nD τ) arg5 fullShare o
        ∗ owns (c : Thread nD τ) arg6 fullShare s0 ∗ owns (c : Thread nD τ) arg7 fullShare s1 ∗ owns (c : Thread nD τ) arg8 fullShare s2
        ∗ (iprop(owns (c : Thread nD τ) arg3 fullShare x0 ∗ owns (c : Thread nD τ) arg4 fullShare y0 ∗ owns (c : Thread nD τ) arg5 fullShare (k0_pay3 (k0_pay2 (BitVec.ofNat 32 (i 1).val) (k0_pay6 i x0 y0 s0) s1) (colStep arg8 harg8 i x0 y0 s2))
        ∗ owns (c : Thread nD τ) arg6 fullShare (k0_pay6 i x0 y0 s0) ∗ owns (c : Thread nD τ) arg7 fullShare (k0_pay2 (BitVec.ofNat 32 (i 1).val) (k0_pay6 i x0 y0 s0) s1)
        ∗ owns (c : Thread nD τ) arg8 fullShare (colStep arg8 harg8 i x0 y0 s2)) -∗ K ⟨⟩))
      ⊢ wp frame (wpE (defs₀ (F := F)) Variants.none c none) E (cc0__chamfer_kernel i arg3 harg3 arg4 harg4 arg5 harg5 arg6 harg6 arg7 harg7 arg8 harg8) K := by
  simp only [cc0__chamfer_kernel_eq_skeleton]; unfold cc0__chamfer_kernel_skel
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg3.eq_unread hf0; obtain rfl := harg4.eq_unread hf1; obtain rfl := harg5.eq_unread hf2
  obtain rfl := harg6.eq_unread hfs0; obtain rfl := harg7.eq_unread hfs1; obtain rfl := harg8.eq_unread hfs2
  sl_exec (disch := first | exact hc0 | exact hc1)
  sl_step
  sl_unfold_run_names
  have e3 : View.readAt (Elt F) arg3.view (Rect.unit ![0, 0, 0] S1x1024x3.size inb_S1x1024x3_S1x1024x3_0_0_0).toLoadRect (harg3.unread x0) = x0 := by
    rw [View.readAt_eq_ld, harg3.read_unread, View.ld_unit_zero hz3]
  have e4 : View.readAt (Elt F) arg4.view (Rect.unit ![0, 0, 0] S1x1024x3.size inb_S1x1024x3_S1x1024x3_0_0_0).toLoadRect (harg4.unread y0) = y0 := by
    rw [View.readAt_eq_ld, harg4.read_unread, View.ld_unit_zero hz3]
  have e6 : View.readAt (Elt F) arg6.view (Rect.unit ![0, 0] S1024x1.size inb_S1024x1_S1024x1_0_0).toLoadRect (harg6.unread s0) = s0 := by
    rw [View.readAt_eq_ld, harg6.read_unread, View.ld_unit_zero hz2]
  have e7 : View.readAt (Elt F) arg7.view (Rect.unit ![0, 0] S1x1.size inb_S1x1_S1x1_0_0).toLoadRect (harg7.unread s1) = s1 := by
    rw [View.readAt_eq_ld, harg7.read_unread, View.ld_unit_zero hz2]
  have e8s : View.readAt (Elt F) arg8.view (Rect.unit (s := S1x8192) (k0_off1 i) S1x1024.size (k0_off1_inb i)).toLoadRect (harg8.unread s2) = View.ld s2 (rectC i) := by
    rw [View.readAt_eq_ld, harg8.read_unread]
  have c6 : ∀ w : S1024x1.Idx → Elt F .f32, arg6.view.readCov [(⟨Rect.unit ![0, 0] S1024x1.size inb_S1024x1_S1024x1_0_0, w⟩ : View.Piece (Elt F) S1024x1 .f32)] (Rect.unit ![0, 0] S1024x1.size inb_S1024x1_S1024x1_0_0).toLoadRect = w :=
    fun w => View.readCov_unit_zero arg6.view hz2 _ w
  have c7 : ∀ w : S1x1.Idx → Elt F .f32, arg7.view.readCov [(⟨Rect.unit ![0, 0] S1x1.size inb_S1x1_S1x1_0_0, w⟩ : View.Piece (Elt F) S1x1 .f32)] (Rect.unit ![0, 0] S1x1.size inb_S1x1_S1x1_0_0).toLoadRect = w :=
    fun w => View.readCov_unit_zero arg7.view hz2 _ w
  have e8w : ∀ g, View.readAt (Elt F) arg8.view (Rect.unit ![0, 0] S1x8192.size inb_S1x8192_S1x8192_0_0).toLoadRect g = arg8.view.read (Elt F) g := by
    intro g; rw [View.readAt_eq_ld, View.ld_unit_zero hz2]
  iapply Hk
  isplitl [H0]
  · iexists _; isplitr
    swap; · iexact H0
    ipureintro; exact harg3.read_unread _
  isplitl [H1]
  · iexists _; isplitr
    swap; · iexact H1
    ipureintro; exact harg4.read_unread _
  isplitl [H2]
  · iexists _; isplitr
    swap; · iexact H2
    ipureintro
    simp only [e3, e4, e6, e7, e8s, c6, c7, e8w]
    rw [View.read_writes_eq_canon _ _ _ (fun y => ⟨_, List.mem_singleton_self _, View.mem_set_unit_zero hz3 inb_S1x1x128_S1x1x128_0_0_0 y⟩), View.canon_unit_zero hz3]
    rfl
  isplitl [HS0]
  · iexists _; isplitr
    swap; · iexact HS0
    ipureintro
    simp only [e3, e4, e6]
    rw [View.read_writes_eq_canon _ _ _ (fun y => ⟨_, List.mem_singleton_self _, View.mem_set_unit_zero hz2 inb_S1024x1_S1024x1_0_0 y⟩), View.canon_unit_zero hz2]
  isplitl [HS1]
  · iexists _; isplitr
    swap; · iexact HS1
    ipureintro
    simp only [e3, e4, e6, e7, c6]
    rw [View.read_writes_eq_canon _ _ _ (fun y => ⟨_, List.mem_singleton_self _, View.mem_set_unit_zero hz2 inb_S1x1_S1x1_0_0 y⟩), View.canon_unit_zero hz2]
  · iexists _; isplitr
    swap; · iexact HS2
    ipureintro
    simp only [e3, e4, e8s]
    rfl

end Cert.KernelIdeal.Body

end
-- ==== Proof.IdealBody.lean ====
/-
  The frame run of the Chamfer kernel, at any float instance, with what the kernel carries between grid points named.

  The grid's 256 points are run in order; point n = 64 b + 8 ni + mi. What the three scratch buffers hold after point n is
  defined by recursion on n from the body's own operations (`stAt`), starting from arbitrary contents. The kernel reads
  its scratch before ever storing it, but every such read is discarded by a select on the grid coordinate (mi = 0 for the
  row minima, ni = 0 for the column minima and for the running sum), so the state does not depend on the contents the
  scratch started with: after point n the row minima are exactly `stAt n`'s, the running sum is once n ≥ 7 (the first
  point that stores it), and the column minima are on the columns below 1024 (n + 1) (the y tiles visited so far; all of
  them once n ≥ 7). That is the invariant the region carries. The output block written at the last point of batch b is
  the two means formed from that state.
-/
import proofs.«178762_j53661321396251_1_alg».proof.Proof.Gen.KernelIdeal.Frame
import proofs.«178762_j53661321396251_1_alg».proof.Proof.Gen.KernelIdeal.Skeleton
import proofs.«178762_j53661321396251_1_alg».proof.Proof.IdealBodyRun
import Idealize.ShloMosaic.Lib.Pipeline.FrameBody
import Idealize.ShloMosaic.Lib.Pipeline.FrameSuffix
import Idealize.ShloMosaic.Lib.Pipeline.Value
import Idealize.ShloMosaic.Lib.WritesUnit
import Idealize.ShloMosaic.Lib.ValueIdx
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The grid in closed form -/

theorem coord1 : ∀ t : Fin cfg0.N, ((grid0.coords t) 1).val = t.val / 8 % 8 :=
  (by decide +kernel : ∀ t : Fin grid0.N, ((grid0.coords t) 1).val = t.val / 8 % 8)
theorem coord2 : ∀ t : Fin cfg0.N, ((grid0.coords t) 2).val = t.val % 8 :=
  (by decide +kernel : ∀ t : Fin grid0.N, ((grid0.coords t) 2).val = t.val % 8)
/-- The running sum is updated at the points ≡ 7 (mod 8). -/
theorem hLast : ∀ t : Fin cfg0.N, condLast (grid0.coords t) ↔ t.val % 8 = 7 :=
  (by decide +kernel : ∀ t : Fin grid0.N, condLast (grid0.coords t) ↔ t.val % 8 = 7)
/-- The output block is written at the points ≡ 63 (mod 64). -/
theorem hFlush : ∀ t : Fin cfg0.N, condFlush (grid0.coords t) ↔ t.val % 64 = 63 :=
  (by decide +kernel : ∀ t : Fin grid0.N, condFlush (grid0.coords t) ↔ t.val % 64 = 63)

theorem liveAt0 : ∀ t : Fin cfg0.N, cfg0.idle 0 (grid0.coords t) = false := by decide +kernel
theorem liveAt1 : ∀ t : Fin cfg0.N, cfg0.idle 1 (grid0.coords t) = false := by decide +kernel
theorem idleAt2 : ∀ t : Fin cfg0.N, ¬condFlush (grid0.coords t) → cfg0.idle 2 (grid0.coords t) = true := by decide +kernel
theorem noFlush2 : ∀ t : Fin cfg0.N, ¬condFlush (grid0.coords t) → (cfg0.win 2).flush t = false := by decide +kernel
theorem liveAt2 : ∀ t : Fin cfg0.N, condFlush (grid0.coords t) → cfg0.idle 2 (grid0.coords t) = false := by decide +kernel

/-! ## The memrefs the body is called with -/

abbrev ms0 (t : Fin cfg0.N) : Memref sig .tc .vmem S1x1024x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x128 .f32 := win0_2.stage (cfg0.slots t 2)
abbrev hs2 (t : Fin cfg0.N) : (ms2 t).IsWhole := hstage0_2 ((cfg0.slots t 2).cast nbuf0_2)
abbrev scM0 : Memref sig .tc .vmem S1024x1 .f32 := Memref.whole cc0_scratch0
abbrev scM1 : Memref sig .tc .vmem S1x1 .f32 := Memref.whole cc0_scratch1
abbrev scM2 : Memref sig .tc .vmem S1x8192 .f32 := Memref.whole cc0_scratch2
abbrev hsc2 : (scM2 : Memref sig .tc .vmem S1x8192 .f32).IsWhole := Memref.isWhole_whole cc0_scratch2

/-- The class invariant with the three scratch buffers as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-! ## The selects discard what the scratch held -/

theorem pay6_first (i : grid0.Coords) (hi : (i 2).val = 0) (x0 y0 : Vec F S1x1024x3 .f32) (s s' : Vec F S1024x1 .f32) :
    k0_pay6 i x0 y0 s = k0_pay6 i x0 y0 s' := by
  have hb : Scalar.cmpi .eq (BitVec.ofNat 32 (i 2).val) 0#32 = 1#1 := by rw [hi]; rfl
  unfold k0_pay6
  simp only [hb, select_one]

theorem pay1_first (n : ℕ) (hn : n = 0) (cm : FVec F S1x1024 .f32) (a b : Vec F S1x1024 .f32) :
    k0_pay1 cm a (Scalar.cmpi .eq (BitVec.ofNat 32 n) 0#32) = k0_pay1 cm b (Scalar.cmpi .eq (BitVec.ofNat 32 n) 0#32) := by
  have hb : Scalar.cmpi .eq (BitVec.ofNat 32 n) 0#32 = 1#1 := by rw [hn]; rfl
  unfold k0_pay1
  simp only [hb, select_one]

theorem pay2_first (n : ℕ) (hn : n = 0) (r : Vec F S1024x1 .f32) (a b : Vec F S1x1 .f32) :
    k0_pay2 (BitVec.ofNat 32 n) r a = k0_pay2 (BitVec.ofNat 32 n) r b := by
  have hb : Scalar.cmpi .eq (BitVec.ofNat 32 n) 0#32 = 1#1 := by rw [hn]; rfl
  unfold k0_pay2
  simp only [hb, select_one]

/-! ## The column minima after a point, column by column -/

theorem colStep_in (arg8 : Memref sig .tc .vmem S1x8192 .f32) (harg8 : arg8.IsWhole) (i : grid0.Coords)
    (x0 y0 : Vec F S1x1024x3 .f32) (s2 : Vec F S1x8192 .f32) (y : S1x8192.Idx) (x : S1x1024.Idx)
    (h0 : (y 0).val = (x 0).val) (h1 : (y 1).val = 1024 * (i 2).val + (x 1).val) :
    colStep arg8 harg8 i x0 y0 s2 y
      = k0_pay1 (k0_pay5 x0 y0) (View.ld s2 (rectC i)) (Scalar.cmpi .eq (BitVec.ofNat 32 (i 1).val) 0#32) x := by
  unfold colStep
  exact View.read_writes_cons_unit_of_mem arg8.view _ (k0_off1_inb i) _ [] y x (k0_off1_eq i)
    (Fin.forall_fin_two.mpr ⟨by show (y 0).val = 0 + (x 0).val; omega, by show (y 1).val = 1024 * (i 2).val + (x 1).val; exact h1⟩)

theorem colStep_out (arg8 : Memref sig .tc .vmem S1x8192 .f32) (harg8 : arg8.IsWhole) (i : grid0.Coords)
    (x0 y0 : Vec F S1x1024x3 .f32) (s2 : Vec F S1x8192 .f32) (y : S1x8192.Idx)
    (h : (y 1).val < 1024 * (i 2).val ∨ 1024 * (i 2).val + 1024 ≤ (y 1).val) :
    colStep arg8 harg8 i x0 y0 s2 y = s2 y := by
  unfold colStep
  rw [View.read_writes_cons_unit_of_not_mem arg8.view _ (k0_off1_inb i) _ [] y (k0_off1_eq i) 1
    (by show (y 1).val < 1024 * (i 2).val ∨ 1024 * (i 2).val + 1024 ≤ (y 1).val; exact h)]
  rw [View.writes_nil, harg8.read_unread]

/-! ## What the scratch holds after each point -/

/-- The row minima, the running sum, the column minima. -/
abbrev St (F : FTy → Type) [FloatOps F] : Type := Vec F S1024x1 .f32 × Vec F S1x1 .f32 × Vec F S1x8192 .f32

def jnk : St F := (fun _ => (Elt.inhabited F .f32).default, fun _ => (Elt.inhabited F .f32).default, fun _ => (Elt.inhabited F .f32).default)

/-- One point's effect on the scratch. -/
def stepAt (c : Dev nD) (t : Fin cfg0.N) (s : St F) : St F :=
  (k0_pay6 (grid0.coords t) (iblk m c 0 t) (iblk m c 1 t) s.1,
   if t.val % 8 = 7 then k0_pay2 (BitVec.ofNat 32 ((grid0.coords t) 1).val) (k0_pay6 (grid0.coords t) (iblk m c 0 t) (iblk m c 1 t) s.1) s.2.1 else s.2.1,
   colStep scM2 hsc2 (grid0.coords t) (iblk m c 0 t) (iblk m c 1 t) s.2.2)

/-- The scratch after point `n`, from arbitrary contents before point 0. -/
def stAt (c : Dev nD) : (n : ℕ) → n < cfg0.N → St F
  | 0, h => stepAt m c ⟨0, h⟩ jnk
  | n + 1, h => stepAt m c ⟨n + 1, h⟩ (stAt c n (Nat.lt_of_succ_lt h))

/-- The scratch before point `n`. -/
def prevAt (c : Dev nD) (n : ℕ) (h : n < cfg0.N) : St F :=
  if hz : n = 0 then jnk else stAt m c (n - 1) (by omega)

theorem prevAt_pos (c : Dev nD) (n : ℕ) (h : n < cfg0.N) (hz : n ≠ 0) : prevAt m c n h = stAt m c (n - 1) (by omega) := dif_neg hz

theorem stAt_eq (c : Dev nD) (n : ℕ) (h : n < cfg0.N) : stAt m c n h = stepAt m c ⟨n, h⟩ (prevAt m c n h) := by
  cases n with
  | zero => rfl
  | succ n => rw [prevAt_pos m c _ _ (Nat.succ_ne_zero n)]; rfl

theorem stAt_1 (c : Dev nD) (t : Fin cfg0.N) :
    (stAt m c t.val t.isLt).1 = k0_pay6 (grid0.coords t) (iblk m c 0 t) (iblk m c 1 t) (prevAt m c t.val t.isLt).1 := by
  rw [stAt_eq]; rfl
theorem stAt_2 (c : Dev nD) (t : Fin cfg0.N) :
    (stAt m c t.val t.isLt).2.1 = if t.val % 8 = 7 then k0_pay2 (BitVec.ofNat 32 ((grid0.coords t) 1).val) (k0_pay6 (grid0.coords t) (iblk m c 0 t) (iblk m c 1 t) (prevAt m c t.val t.isLt).1) (prevAt m c t.val t.isLt).2.1 else (prevAt m c t.val t.isLt).2.1 := by
  rw [stAt_eq]; rfl
theorem stAt_3' (c : Dev nD) (n : ℕ) (h : n < cfg0.N) :
    (stAt m c n h).2.2 = colStep scM2 hsc2 (grid0.coords ⟨n, h⟩) (iblk m c 0 ⟨n, h⟩) (iblk m c 1 ⟨n, h⟩) (prevAt m c n h).2.2 := by
  rw [stAt_eq]; unfold stepAt; dsimp only
theorem stAt_3 (c : Dev nD) (t : Fin cfg0.N) :
    (stAt m c t.val t.isLt).2.2 = colStep scM2 hsc2 (grid0.coords t) (iblk m c 0 t) (iblk m c 1 t) (prevAt m c t.val t.isLt).2.2 := by
  obtain ⟨n, h⟩ := t
  exact stAt_3' m c n h

/-- What is known of the scratch after point `n`, whatever it held before point 0. -/
def Inv (c : Dev nD) (n : ℕ) (h : n < cfg0.N) (s0 : Vec F S1024x1 .f32) (s1 : Vec F S1x1 .f32) (s2 : Vec F S1x8192 .f32) : Prop :=
  s0 = (stAt m c n h).1 ∧ (7 ≤ n → s1 = (stAt m c n h).2.1) ∧ ∀ y : S1x8192.Idx, (y 1).val < (n + 1) * 1024 → s2 y = (stAt m c n h).2.2 y

set_option maxHeartbeats 1000000 in
/-- The invariant is kept by every point. -/
theorem inv_step (c : Dev nD) (t : Fin cfg0.N) (s0 : Vec F S1024x1 .f32) (s1 : Vec F S1x1 .f32) (s2 : Vec F S1x8192 .f32)
    (hprev : ∀ hz : t.val ≠ 0, Inv m c (t.val - 1) (by have := t.isLt; omega) s0 s1 s2) :
    Inv m c t.val t.isLt
      (k0_pay6 (grid0.coords t) (iblk m c 0 t) (iblk m c 1 t) s0)
      (if t.val % 8 = 7 then k0_pay2 (BitVec.ofNat 32 ((grid0.coords t) 1).val) (k0_pay6 (grid0.coords t) (iblk m c 0 t) (iblk m c 1 t) s0) s1 else s1)
      (colStep scM2 hsc2 (grid0.coords t) (iblk m c 0 t) (iblk m c 1 t) s2) := by
  have hN : t.val < 256 := lt_of_lt_of_eq t.isLt (show cfg0.N = 256 from N_0)
  have h1 := coord1 t
  have h2 := coord2 t
  have r0 : k0_pay6 (grid0.coords t) (iblk m c 0 t) (iblk m c 1 t) s0 = (stAt m c t.val t.isLt).1 := by
    rw [stAt_1]
    by_cases hz : t.val = 0
    · exact pay6_first _ (by rw [h2, hz]) _ _ _ _
    · rw [(hprev hz).1, prevAt_pos m c _ _ hz]
  refine ⟨r0, ?_, ?_⟩
  · intro h7
    rw [stAt_2]
    by_cases hl : t.val % 8 = 7
    · rw [if_pos hl, if_pos hl, ← stAt_1, ← r0]
      by_cases hni : ((grid0.coords t) 1).val = 0
      · exact pay2_first _ hni _ _ _
      · have hz : t.val ≠ 0 := by omega
        have h7' : 7 ≤ t.val - 1 := by rw [h1] at hni; omega
        rw [(hprev hz).2.1 h7', prevAt_pos m c _ _ hz]
    · rw [if_neg hl, if_neg hl]
      have hz : t.val ≠ 0 := by omega
      have h7' : 7 ≤ t.val - 1 := by omega
      rw [(hprev hz).2.1 h7', prevAt_pos m c _ _ hz]
  · intro y hy
    rw [stAt_3]
    have hy1 : (y 1).val < 8192 := (y 1).isLt
    have hy0 : (y 0).val < 1 := (y 0).isLt
    by_cases hin : 1024 * (t.val % 8) ≤ (y 1).val ∧ (y 1).val < 1024 * (t.val % 8) + 1024
    · have hx : ∃ x : S1x1024.Idx, (y 0).val = (x 0).val ∧ (y 1).val = 1024 * ((grid0.coords t) 2).val + (x 1).val :=
        ⟨ix2 ⟨0, by decide⟩ ⟨(y 1).val - 1024 * (t.val % 8), by omega⟩, by show (y 0).val = 0; omega,
          by show (y 1).val = 1024 * ((grid0.coords t) 2).val + ((y 1).val - 1024 * (t.val % 8)); rw [h2]; omega⟩
      obtain ⟨x, hx0, hx1⟩ := hx
      rw [colStep_in _ _ _ _ _ _ y x hx0 hx1, colStep_in _ _ _ _ _ _ y x hx0 hx1]
      by_cases hni : ((grid0.coords t) 1).val = 0
      · exact congrFun (pay1_first _ hni _ _ _) x
      · have hz : t.val ≠ 0 := by rw [h1] at hni; omega
        have hs : s2 = (prevAt m c t.val t.isLt).2.2 := by
          funext y'
          have hy1' : (y' 1).val < 8192 := (y' 1).isLt
          rw [prevAt_pos m c _ _ hz]
          exact (hprev hz).2.2 y' (by rw [h1] at hni; omega)
        rw [hs]
    · rw [colStep_out _ _ _ _ _ _ y (by rw [h2]; omega), colStep_out _ _ _ _ _ _ y (by rw [h2]; omega)]
      have hz : t.val ≠ 0 := by intro hz; rw [hz] at hin hy; omega
      rw [prevAt_pos m c _ _ hz]
      exact (hprev hz).2.2 y (by omega)

/-! ## The region's invariant and the proof data -/

/-- Before point `n`: at point 0 the scratch holds anything; afterwards it satisfies the invariant of the point before. -/
def PhiS (c : Dev nD) (n : ℕ) (hn : n ≤ cfg0.N) : sProp 𝕄 :=
  if hz : n = 0 then Pipeline.ΦA spec0 c
  else iprop((∃ s0 s1 s2, ⌜Inv m c (n - 1) (by omega) s0 s1 s2⌝ ∗ owns (c : Thread nD τ) scM0 fullShare s0
      ∗ owns (c : Thread nD τ) scM1 fullShare s1 ∗ owns (c : Thread nD τ) scM2 fullShare s2) ∗ (∃ r, prngReg c r))

theorem PhiS_zero (c : Dev nD) (n : ℕ) (h : n ≤ cfg0.N) (hz : n = 0) : PhiS m c n h = Pipeline.ΦA spec0 c := dif_pos hz

theorem PhiS_pos (c : Dev nD) (n : ℕ) (h : n ≤ cfg0.N) (hz : n ≠ 0) :
    PhiS m c n h = iprop((∃ s0 s1 s2, ⌜Inv m c (n - 1) (by omega) s0 s1 s2⌝ ∗ owns (c : Thread nD τ) scM0 fullShare s0
      ∗ owns (c : Thread nD τ) scM1 fullShare s1 ∗ owns (c : Thread nD τ) scM2 fullShare s2) ∗ (∃ r, prngReg c r)) := dif_neg hz

theorem PhiS_succ (c : Dev nD) (n : ℕ) (hn : n < cfg0.N) :
    PhiS m c (n + 1) hn = iprop((∃ s0 s1 s2, ⌜Inv m c n hn s0 s1 s2⌝ ∗ owns (c : Thread nD τ) scM0 fullShare s0
      ∗ owns (c : Thread nD τ) scM1 fullShare s1 ∗ owns (c : Thread nD τ) scM2 fullShare s2) ∗ (∃ r, prngReg c r)) :=
  dif_neg (Nat.succ_ne_zero n)

/-- The proof data: the arrays as the region finds them; each input's buffer left at its block; the output's buffer left
    at the two means formed from the state after the point (read only where the block is written back: the last point of
    a batch); the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (stAt m c t.val t.isLt).2.1 (stAt m c t.val t.isLt).2.2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = k0_pay3 (stAt m c t.val t.isLt).2.1 (stAt m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the invariant hands it the scratch (at anything before point 0, else at contents satisfying
    the invariant of the point before) and takes it back at contents satisfying this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [PhiS_castSucc m c t]
  rw [show (dats m 0 c).leavesExact 0 t = owns (c : Thread nD τ) (ms0 t) fullShare ((dats m 0 c).after 0 t) from by
    unfold Dat.leavesExact; rw [liveAt0 t], after0_0]
  rw [show (dats m 0 c).leavesExact 1 t = owns (c : Thread nD τ) (ms1 t) fullShare ((dats m 0 c).after 1 t) from by
    unfold Dat.leavesExact; rw [liveAt1 t], after0_1]
  have hN : t.val < 256 := lt_of_lt_of_eq t.isLt (show cfg0.N = 256 from N_0)
  by_cases hl : t.val % 8 = 7
  · have hz : t.val ≠ 0 := by omega
    rw [PhiS_pos m c _ _ hz]
    by_cases hf : t.val % 64 = 63
    · rw [show (dats m 0 c).leavesExact 2 t = owns (c : Thread nD τ) (ms2 t) fullShare ((dats m 0 c).after 2 t) from by
        unfold Dat.leavesExact; rw [liveAt2 t ((hFlush t).mpr hf)], after0_2]
      iintro ⟨⟨⟨%s0, %s1, %s2, %hI, HS0, HS1, HS2⟩, Hg⟩, Ho, ⟨%d0, H0⟩, ⟨%d1, H1⟩, ⟨%d2, H2⟩⟩
      have I := inv_step m c t s0 s1 s2 (fun _ => hI)
      rw [if_pos hl] at I
      have e1 := I.2.1 (by omega)
      have e2 : colStep scM2 hsc2 (grid0.coords t) (iblk m c 0 t) (iblk m c 1 t) s2 = (stAt m c t.val t.isLt).2.2 :=
        funext fun y => I.2.2 y (by have hy1 : (y 1).val < 8192 := (y 1).isLt; omega)
      rw [← e1, ← e2]
      iapply (run_flush c (grid0.coords t) (ms0 t) (hs0 t) (ms1 t) (hs1 t) (ms2 t) (hs2 t) scM0 (Memref.isWhole_whole _) scM1 (Memref.isWhole_whole _) scM2 (Memref.isWhole_whole _)
        ((hLast t).mpr hl) ((hFlush t).mpr hf) (iblk m c 0 t) (iblk m c 1 t) _ s0 s1 s2 Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitr [Hg]
        · iexists _, _, _; isplitr; · ipureintro; exact I
          isplitl [HS0]; · iexact HS0
          isplitl [HS1]; · iexact HS1
          iexact HS2
        · iexact Hg
      isplitl [Ho]; · iexact Ho
      isplitl [H0]; · iexact H0
      isplitl [H1]; · iexact H1
      iexact H2
    · rw [Dat.leavesExact_idle (dats m 0 c) 2 t (idleAt2 t (fun h => hf ((hFlush t).mp h))) (noFlush2 t (fun h => hf ((hFlush t).mp h)))]
      iintro ⟨⟨⟨%s0, %s1, %s2, %hI, HS0, HS1, HS2⟩, Hg⟩, Ho, ⟨%d0, H0⟩, ⟨%d1, H1⟩, ⟨%d2, H2⟩⟩
      have I := inv_step m c t s0 s1 s2 (fun _ => hI)
      rw [if_pos hl] at I
      iapply (run_last c (grid0.coords t) (ms0 t) (hs0 t) (ms1 t) (hs1 t) (ms2 t) (hs2 t) scM0 (Memref.isWhole_whole _) scM1 (Memref.isWhole_whole _) scM2 (Memref.isWhole_whole _)
        ((hLast t).mpr hl) (fun h => hf ((hFlush t).mp h)) (iblk m c 0 t) (iblk m c 1 t) _ s0 s1 s2 Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitr [Hg]
        · iexists _, _, _; isplitr; · ipureintro; exact I
          isplitl [HS0]; · iexact HS0
          isplitl [HS1]; · iexact HS1
          iexact HS2
        · iexact Hg
      isplitl [Ho]; · iexact Ho
      isplitl [H0]; · iexact H0
      isplitl [H1]; · iexact H1
      iexists _; iexact H2
  · have hf : ¬t.val % 64 = 63 := by omega
    rw [Dat.leavesExact_idle (dats m 0 c) 2 t (idleAt2 t (fun h => hf ((hFlush t).mp h))) (noFlush2 t (fun h => hf ((hFlush t).mp h)))]
    by_cases hz : t.val = 0
    · rw [PhiS_zero m c _ _ hz, PhiA0_eq]
      iintro ⟨⟨⟨⟨%s0, HS0⟩, ⟨%s1, HS1⟩, ⟨%s2, HS2⟩⟩, Hg⟩, Ho, ⟨%d0, H0⟩, ⟨%d1, H1⟩, ⟨%d2, H2⟩⟩
      have I := inv_step m c t s0 s1 s2 (fun hz' => absurd hz hz')
      rw [if_neg hl] at I
      iapply (run_mid c (grid0.coords t) (ms0 t) (hs0 t) (ms1 t) (hs1 t) (ms2 t) (hs2 t) scM0 (Memref.isWhole_whole _) scM1 (Memref.isWhole_whole _) scM2 (Memref.isWhole_whole _)
        (fun h => hl ((hLast t).mp h)) (fun h => hf ((hFlush t).mp h)) (iblk m c 0 t) (iblk m c 1 t) _ s0 s1 s2 Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitr [Hg]
        · iexists _, _, _; isplitr; · ipureintro; exact I
          isplitl [HS0]; · iexact HS0
          isplitl [HS1]; · iexact HS1
          iexact HS2
        · iexact Hg
      isplitl [Ho]; · iexact Ho
      isplitl [H0]; · iexact H0
      isplitl [H1]; · iexact H1
      iexists _; iexact H2
    · rw [PhiS_pos m c _ _ hz]
      iintro ⟨⟨⟨%s0, %s1, %s2, %hI, HS0, HS1, HS2⟩, Hg⟩, Ho, ⟨%d0, H0⟩, ⟨%d1, H1⟩, ⟨%d2, H2⟩⟩
      have I := inv_step m c t s0 s1 s2 (fun _ => hI)
      rw [if_neg hl] at I
      iapply (run_mid c (grid0.coords t) (ms0 t) (hs0 t) (ms1 t) (hs1 t) (ms2 t) (hs2 t) scM0 (Memref.isWhole_whole _) scM1 (Memref.isWhole_whole _) scM2 (Memref.isWhole_whole _)
        (fun h => hl ((hLast t).mp h)) (fun h => hf ((hFlush t).mp h)) (iblk m c 0 t) (iblk m c 1 t) _ s0 s1 s2 Set.univ _)
      isplitl [H0]; · iexact H0
      isplitl [H1]; · iexact H1
      isplitl [H2]; · iexact H2
      isplitl [HS0]; · iexact HS0
      isplitl [HS1]; · iexact HS1
      isplitl [HS2]; · iexact HS2
      iintro ⟨H0, H1, H2, HS0, HS1, HS2⟩
      isplitl [HS0 HS1 HS2 Hg]
      · isplitr [Hg]
        · iexists _, _, _; isplitr; · ipureintro; exact I
          isplitl [HS0]; · iexact HS0
          isplitl [HS1]; · iexact HS1
          iexact HS2
        · iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), PhiA0_eq]
  iintro ⟨⟨%s0, %s1, %s2, %hI, HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.LibMinOps.lean ====
/-
  Minima read at an index over the extended reals, and tile-by-tile regrouping.

  For an a × b matrix, the minimum over a row (a vector reduction along the columns from +∞) read at row p, and the
  minimum over a column (the reduction along the rows) read at column q, are the infima of the entries; for an
  a × b × c array the host's reduce with a minimum body from +∞ over the last axis, read at (p, q), and over the middle
  axis, read at (p, j), likewise. An infimum or a sum over T·W consecutive positions is the infimum or the sum over the T
  tiles of each tile's infimum or sum, position W·i + j being entry j of tile i. A vector laid out as one row reads
  entry q at (0, q), and a rank-3 array with a leading unit axis viewed as a matrix reads (0, r, k) at (r, k).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.MinOps

open Idealize.ShloMosaic Idealize.ShloMosaic.ValueIdx

variable {a b c : Nat}

/-- The f32 word of +∞ is the top of the extended reals. -/
theorem ofBits_posInf : Ideal.ofBits .f32 0x7F800000#32 = (⊤ : EReal) := by simp [Ideal.ofBits, Ideal.ieee]

/-- The fold of min from the top over a finite type is the infimum. -/
theorem fold_min_top {ι : Type} [Fintype ι] [DecidableEq ι] (f : ι → EReal) :
    (Finset.univ : Finset ι).fold min ⊤ f = ⨅ k, f k := by
  rw [← Finset.inf_univ_eq_iInf]
  generalize (Finset.univ : Finset ι) = s
  refine Finset.induction_on s ?_ ?_
  · simp
  · intro x s hx ih
    rw [Finset.fold_insert hx, Finset.inf_insert, ih]

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext d; apply Fin.ext
  fin_cases d <;> rfl

/-- Column q with row k put back is (k, q). -/
theorem lift_col (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext d; apply Fin.ext
  fin_cases d <;> rfl

/-- A vector reduction's row minimum from +∞: the infimum of the row's entries. -/
theorem rowMin_vector (src : FVec Ideal ⟨2, ![a, b]⟩ .f32)
    (h : (⟨2, ![a, b]⟩ : Shape).Reduces [1] (⟨1, ![a]⟩ : Shape)) (p : Fin a) :
    multiReduction .minimumf [1] ⟨1, ![a]⟩ src 0x7F800000#32 h (.inl rfl) rfl (ix1 p) = ⨅ j : Fin b, src (ix2 p j) := by
  refine (multiReduction_minimumf_eq_fold src _ h (.inl rfl) rfl (ix1 p)).trans ?_
  refine (h.fold_filter_drop_single _ _ src (ix1 p)).trans ?_
  have hf : (src ∘ h.lift (ix1 p)) = fun k : Fin b => src (ix2 p k) := funext fun k => congrArg src (lift_row h p k)
  refine (congrArg (fun f => Finset.fold min (Ideal.ofBits .f32 0x7F800000#32) f (Finset.univ : Finset (Fin b))) hf).trans ?_
  rw [ofBits_posInf]; exact fold_min_top _

/-- A vector reduction's column minimum from +∞: the infimum of the column's entries. -/
theorem colMin_vector (src : FVec Ideal ⟨2, ![a, b]⟩ .f32)
    (h : (⟨2, ![a, b]⟩ : Shape).Reduces [0] (⟨1, ![b]⟩ : Shape)) (q : Fin b) :
    multiReduction .minimumf [0] ⟨1, ![b]⟩ src 0x7F800000#32 h (.inl rfl) rfl (ix1 q) = ⨅ p : Fin a, src (ix2 p q) := by
  refine (multiReduction_minimumf_eq_fold src _ h (.inl rfl) rfl (ix1 q)).trans ?_
  refine (h.fold_filter_drop_single _ _ src (ix1 q)).trans ?_
  have hf : (src ∘ h.lift (ix1 q)) = fun k : Fin a => src (ix2 k q) := funext fun k => congrArg src (lift_col h q k)
  refine (congrArg (fun f => Finset.fold min (Ideal.ofBits .f32 0x7F800000#32) f (Finset.univ : Finset (Fin a))) hf).trans ?_
  rw [ofBits_posInf]; exact fold_min_top _

/-- (p, q) with last coordinate k put back is (p, q, k). -/
theorem lift_last (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- (p, j) with middle coordinate k put back is (p, k, j). -/
theorem lift_mid (h : (⟨3, ![a, b, c]⟩ : Shape).Reduces [1] (⟨2, ![a, c]⟩ : Shape)) (p : Fin a) (j : Fin c)
    (k : Fin ((⟨3, ![a, b, c]⟩ : Shape).size 1)) : h.lift (ix2 p j) k = ix3 p (⟨k.val, k.isLt⟩ : Fin b) j := by
  funext d; apply Fin.ext
  fin_cases d <;> rfl

/-- The host's minimum over the last axis from +∞, at (p, q): the infimum of the entries (p, q, j). -/
theorem hostMin_last (x : FVec Ideal ⟨3, ![a, b, c]⟩ .f32) (init : (⟨0, ![]⟩ : Shape).Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < (⟨0, ![]⟩ : Shape).numel)
    (hinit : init (Shape.Idx.first hu) = (⊤ : EReal)) (p : Fin a) (q : Fin b) :
    Host.reduce FloatOps.minimumf x init h' hu (ix2 p q) = ⨅ j : Fin c, x (ix3 p q j) := by
  rw [Host.reduce_eq_fold_single FloatOps.minimumf x init h' h hu, hinit]
  have hf : (x ∘ h.lift (ix2 p q)) = fun k : Fin c => x (ix3 p q k) := funext fun k => congrArg x (lift_last h p q k)
  refine (congrArg (fun f => Finset.fold min (⊤ : EReal) f (Finset.univ : Finset (Fin c))) hf).trans ?_
  exact fold_min_top _

/-- The host's minimum over the middle axis from +∞, at (p, j): the infimum of the entries (p, q, j). -/
theorem hostMin_mid (x : FVec Ideal ⟨3, ![a, b, c]⟩ .f32) (init : (⟨0, ![]⟩ : Shape).Idx → Ideal .f32)
    (h' : (⟨3, ![a, b, c]⟩ : Shape).ReducesTo [1] (⟨2, ![a, c]⟩ : Shape))
    (h : (⟨3, ![a, b, c]⟩ : Shape).Reduces [1] (⟨2, ![a, c]⟩ : Shape)) (hu : 0 < (⟨0, ![]⟩ : Shape).numel)
    (hinit : init (Shape.Idx.first hu) = (⊤ : EReal)) (p : Fin a) (j : Fin c) :
    Host.reduce FloatOps.minimumf x init h' hu (ix2 p j) = ⨅ q : Fin b, x (ix3 p q j) := by
  rw [Host.reduce_eq_fold_single FloatOps.minimumf x init h' h hu, hinit]
  have hf : (x ∘ h.lift (ix2 p j)) = fun k : Fin b => x (ix3 p k j) := funext fun k => congrArg x (lift_mid h p j k)
  refine (congrArg (fun f => Finset.fold min (⊤ : EReal) f (Finset.univ : Finset (Fin b))) hf).trans ?_
  exact fold_min_top _

/-- Entry j of tile i of N = T·W consecutive positions: position W·i + j. -/
def tile {T W N : ℕ} (h : T * W = N) (i : Fin T) (j : Fin W) : Fin N := Fin.cast h (finProdFinEquiv (i, j))

theorem tile_val {T W N : ℕ} (h : T * W = N) (i : Fin T) (j : Fin W) : (tile h i j).val = W * i.val + j.val := by
  simp [tile, finProdFinEquiv, Nat.add_comm]

/-- An infimum over N = T·W positions, tile by tile. -/
theorem iInf_tile {T W N : ℕ} (h : T * W = N) (f : Fin N → EReal) :
    ⨅ k, f k = ⨅ i : Fin T, ⨅ j : Fin W, f (tile h i j) := by
  subst h
  rw [← Equiv.iInf_comp (g := f) finProdFinEquiv, iInf_prod]
  rfl

/-- A sum over N = T·W positions, tile by tile. -/
theorem sum_tile {M : Type} [AddCommMonoid M] {T W N : ℕ} (h : T * W = N) (f : Fin N → M) :
    ∑ k, f k = ∑ i : Fin T, ∑ j : Fin W, f (tile h i j) := by
  subst h
  rw [← Equiv.sum_comp finProdFinEquiv f, Fintype.sum_prod_type]
  rfl

/-- An infimum over T·W positions, tile by tile: position W·i + j is entry j of tile i. -/
theorem iInf_tiles {T W : ℕ} (f : Fin (T * W) → EReal) :
    ⨅ k, f k = ⨅ i : Fin T, ⨅ j : Fin W, f (finProdFinEquiv (i, j)) := by
  rw [← Equiv.iInf_comp (g := f) finProdFinEquiv, iInf_prod]

/-- A sum over T·W positions, tile by tile. -/
theorem sum_tiles {M : Type} [AddCommMonoid M] {T W : ℕ} (f : Fin (T * W) → M) :
    ∑ k, f k = ∑ i : Fin T, ∑ j : Fin W, f (finProdFinEquiv (i, j)) := by
  rw [← Equiv.sum_comp finProdFinEquiv f, Fintype.sum_prod_type]

/-- A vector of n entries laid out as one row reads entry q at (0, q). -/
theorem rowCast_apply {α : Type} (v : (⟨1, ![b]⟩ : Shape).Idx → α) (h : (⟨1, ![b]⟩ : Shape).ShapeCasts ⟨2, ![1, b]⟩) (q : Fin b) :
    shapeCast ⟨2, ![1, b]⟩ v h (ix2 (0 : Fin 1) q) = v (ix1 q) :=
  shapeCast_apply v h (ix2 (0 : Fin 1) q) (ix1 q) (by
    rw [Shape.rowMajor_val_one, Shape.rowMajor_val_two]; show q.val = 0 * b + q.val; omega)

/-- A vector stood up as a column reads entry p at (p, 0). -/
theorem colCast_apply {α : Type} (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply {α : Type} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A row spread over a rows reads its entry (0, q) at every (p, q). -/
theorem rowBcast_apply {α : Type} (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A rank-3 array with a leading unit axis viewed as a matrix reads (0, r, k) at (r, k). -/
theorem dropLead_apply {α : Type} (v : (⟨3, ![1, a, b]⟩ : Shape).Idx → α) (h : (⟨3, ![1, a, b]⟩ : Shape).ShapeCasts ⟨2, ![a, b]⟩)
    (r : Fin a) (k : Fin b) : shapeCast ⟨2, ![a, b]⟩ v h (ix2 r k) = v (ix3 (0 : Fin 1) r k) :=
  shapeCast_apply v h (ix2 r k) (ix3 (0 : Fin 1) r k) (by
    rw [Shape.rowMajor_val_three, Shape.rowMajor_val_two]
    show (0 * a + r.val) * b + k.val = r.val * b + k.val
    rw [Nat.zero_mul, Nat.zero_add])

/-- A vector reduction's row sum from zero: the sum of the row's entries. -/
theorem rowSum_vector (src : FVec Ideal ⟨2, ![a, b]⟩ .f32)
    (h : (⟨2, ![a, b]⟩ : Shape).Reduces [1] (⟨1, ![a]⟩ : Shape)) (p : Fin a) :
    multiReduction .add [1] ⟨1, ![a]⟩ src 0x00000000#32 h (.inl rfl) rfl (ix1 p) = ∑ j : Fin b, src (ix2 p j) := by
  refine (Ideal.multiReduction_add_single src 0x00000000#32 h (.inl rfl) rfl (ix1 p)).trans ?_
  exact Finset.sum_congr rfl fun k _ => congrArg src (lift_row h p k)

/-- A vector reduction's column sum from zero: the sum of the column's entries. -/
theorem colSum_vector (src : FVec Ideal ⟨2, ![a, b]⟩ .f32)
    (h : (⟨2, ![a, b]⟩ : Shape).Reduces [0] (⟨1, ![b]⟩ : Shape)) (q : Fin b) :
    multiReduction .add [0] ⟨1, ![b]⟩ src 0x00000000#32 h (.inl rfl) rfl (ix1 q) = ∑ p : Fin a, src (ix2 p q) := by
  refine (Ideal.multiReduction_add_single src 0x00000000#32 h (.inl rfl) rfl (ix1 q)).trans ?_
  exact Finset.sum_congr rfl fun k _ => congrArg src (lift_col h q k)

end Idealize.ShloMosaic.MinOps

end
-- ==== Proof.IdealPay.lean ====
/-
  The kernel body's pure operations read at an index, over the extended reals.

  From a tile x0 of 1024 points of x and a tile y0 of 1024 points of y the body forms the 1024 x 1024 tile of clamped
  squared distances, dist r q = max (|x_r|² + |y_q|² − 2 x_r·y_q, 0), and from it the row infima and the column infima. The
  row infima are folded into the running row minima (replacing them at the first y tile), the column infima into the
  running column minima (replacing them at the first x tile), the finished row minima are summed into the running sum
  (replacing it at the first x tile), and the output is the running sum over 8192 plus the sum of the column minima over
  8192. Each lemma below reads one of these at an index.
-/
import proofs.«178762_j53661321396251_1_alg».proof.Proof.Gen.KernelIdeal.Skeleton
import proofs.«178762_j53661321396251_1_alg».proof.Proof.LibMinOps
import Idealize.ShloMosaic.Lib.Pipeline.Value
import Idealize.ShloMosaic.Lib.ValueIdx
import Idealize.ShloMosaic.PureOps.Ideal.Laws

noncomputable section

open scoped BigOperators

namespace Cert.KernelIdeal.Val

open Idealize.ShloMosaic Idealize.ShloMosaic.ValueIdx Idealize.ShloMosaic.MinOps
open Cert.KernelIdeal Cert.KernelIdeal.Gen

/-- A select on a scalar bit between two arrays, read at an index. -/
theorem select_fun {ι α : Type} (c : BitVec 1) (f g : ι → α) (i : ι) :
    (Scalar.select c f g) i = Scalar.select c (f i) (g i) := by
  unfold Scalar.select; split <;> rfl

/-- The clamped squared distance between point r of the x tile and point q of the y tile. -/
def dist (x0 y0 : Vec Ideal S1x1024x3 .f32) (r q : Fin 1024) : EReal :=
  max (((∑ k : Fin 3, x0 (ix3 (0 : Fin 1) r k) * x0 (ix3 (0 : Fin 1) r k)) + (∑ k : Fin 3, y0 (ix3 (0 : Fin 1) q k) * y0 (ix3 (0 : Fin 1) q k)))
      - Ideal.ofBits .f32 0x40000000#32 * (∑ k : Fin 3, x0 (ix3 (0 : Fin 1) r k) * y0 (ix3 (0 : Fin 1) q k)))
    (Ideal.ofBits .f32 0x00000000#32)

theorem lhs_mm_0 (i : S1024x1024.Idx) (q : dot_S1024x3_S1024x3_S1024x1024_1_1_0_0_n_n.contr.Idx) : (dot_S1024x3_S1024x3_S1024x1024_1_1_0_0_n_n.lhsIdx i q 0).val = (i 0).val := by
  unfold DotDims.lhsIdx
  rw [dif_neg (show ¬(0 : Fin S1024x3.rank) ∈ dot_S1024x3_S1024x3_S1024x1024_1_1_0_0_n_n.lhsBatch by decide), dif_pos (show (0 : Fin S1024x3.rank) ∈ dot_S1024x3_S1024x3_S1024x1024_1_1_0_0_n_n.lhsNonContracting by decide)]
  rfl
theorem lhs_mm_1 (i : S1024x1024.Idx) (q : dot_S1024x3_S1024x3_S1024x1024_1_1_0_0_n_n.contr.Idx) : (dot_S1024x3_S1024x3_S1024x1024_1_1_0_0_n_n.lhsIdx i q 1).val = (q ⟨0, by decide⟩).val :=
  dot_S1024x3_S1024x3_S1024x1024_1_1_0_0_n_n.lhsIdx_val_of_single rfl i q
theorem rhs_mm_0 (i : S1024x1024.Idx) (q : dot_S1024x3_S1024x3_S1024x1024_1_1_0_0_n_n.contr.Idx) : (dot_S1024x3_S1024x3_S1024x1024_1_1_0_0_n_n.rhsIdx i q 0).val = (i 1).val := by
  unfold DotDims.rhsIdx
  rw [dif_neg (show ¬(0 : Fin S1024x3.rank) ∈ dot_S1024x3_S1024x3_S1024x1024_1_1_0_0_n_n.rhsBatch by decide), dif_pos (show (0 : Fin S1024x3.rank) ∈ dot_S1024x3_S1024x3_S1024x1024_1_1_0_0_n_n.rhsNonContracting by decide)]
  rfl
theorem rhs_mm_1 (i : S1024x1024.Idx) (q : dot_S1024x3_S1024x3_S1024x1024_1_1_0_0_n_n.contr.Idx) : (dot_S1024x3_S1024x3_S1024x1024_1_1_0_0_n_n.rhsIdx i q 1).val = (q ⟨0, by decide⟩).val :=
  dot_S1024x3_S1024x3_S1024x1024_1_1_0_0_n_n.rhsIdx_val_of_single rfl i q

/-- The matrix product of the two tiles, second against second axis, at (r, q): the inner product of point r and point q. -/
theorem matmul_rq (v1 v3 : FVec Ideal S1024x3 .f32) (r q : Fin 1024) :
    matmul dot_S1024x3_S1024x3_S1024x1024_1_1_0_0_n_n none v1 v3 (constant S1024x1024 .f32 0x00000000#32) (ix2 r q)
      = ∑ k : Fin 3, v1 (ix2 r k) * v3 (ix2 q k) := by
  show FloatOps.matmul dot_S1024x3_S1024x3_S1024x1024_1_1_0_0_n_n none v1 v3 (constant S1024x1024 .f32 0x00000000#32) (ix2 r q) = _
  rw [Ideal.matmul_constant_zero_apply, ← Equiv.sum_comp (contrEquiv1 dot_S1024x3_S1024x3_S1024x1024_1_1_0_0_n_n 3 rfl rfl).symm]
  refine Finset.sum_congr rfl fun k _ => ?_
  have hk := contrEquiv1_symm_val dot_S1024x3_S1024x3_S1024x1024_1_1_0_0_n_n 3 rfl rfl k
  have el : dot_S1024x3_S1024x3_S1024x1024_1_1_0_0_n_n.lhsIdx (ix2 r q) ((contrEquiv1 dot_S1024x3_S1024x3_S1024x1024_1_1_0_0_n_n 3 rfl rfl).symm k) = ix2 r k := funext fun a => Fin.ext (by
    match a with
    | ⟨0, _⟩ => exact lhs_mm_0 _ _
    | ⟨1, _⟩ => exact (lhs_mm_1 _ _).trans hk)
  have er : dot_S1024x3_S1024x3_S1024x1024_1_1_0_0_n_n.rhsIdx (ix2 r q) ((contrEquiv1 dot_S1024x3_S1024x3_S1024x1024_1_1_0_0_n_n 3 rfl rfl).symm k) = ix2 q k := funext fun a => Fin.ext (by
    match a with
    | ⟨0, _⟩ => exact rhs_mm_0 _ _
    | ⟨1, _⟩ => exact (rhs_mm_1 _ _).trans hk)
  rw [el, er]

/-- The distance tile at (r, q). -/
theorem pay4_apply (x0 y0 : Vec Ideal S1x1024x3 .f32) (r q : Fin 1024) : k0_pay4 x0 y0 (ix2 r q) = dist x0 y0 r q := by
  unfold k0_pay4 dist
  try dsimp only
  rw [maximumf_apply, subf_apply, addf_apply, mulf_apply, broadcast_apply, broadcast_apply]
  rw [colBcast_apply, colCast_apply, rowSum_vector, rowBcast_apply, rowCast_apply, rowSum_vector, matmul_rq]
  simp only [mulf_apply, dropLead_apply]
  rfl

/-- The tile's column infima at column q. -/
theorem pay5_apply (x0 y0 : Vec Ideal S1x1024x3 .f32) (q : Fin 1024) :
    k0_pay5 x0 y0 (ix2 (0 : Fin 1) q) = ⨅ r : Fin 1024, dist x0 y0 r q := by
  unfold k0_pay5
  try dsimp only
  rw [rowCast_apply, colMin_vector]
  exact iInf_congr fun r => pay4_apply x0 y0 r q

/-- The running row minima after the point, at row r. -/
theorem pay6_apply (i : grid0.Coords) (x0 y0 : Vec Ideal S1x1024x3 .f32) (s : Vec Ideal S1024x1 .f32) (r : Fin 1024) :
    k0_pay6 i x0 y0 s (ix2 r (0 : Fin 1))
      = Scalar.select (Scalar.cmpi .eq (BitVec.ofNat 32 (i 2).val) 0#32) (⨅ q : Fin 1024, dist x0 y0 r q)
          (min (s (ix2 r (0 : Fin 1))) (⨅ q : Fin 1024, dist x0 y0 r q)) := by
  unfold k0_pay6
  try dsimp only
  rw [shapeCast_self, select_fun, minimumf_apply, colCast_apply, rowMin_vector]
  simp only [pay4_apply]

/-- The point's columns of the running column minima after the point, at column q of the tile. -/
theorem pay1_apply (cm : FVec Ideal S1x1024 .f32) (a : Vec Ideal S1x1024 .f32) (v : BitVec 1) (q : Fin 1024) :
    k0_pay1 cm a v (ix2 (0 : Fin 1) q) = Scalar.select v (cm (ix2 (0 : Fin 1) q)) (min (a (ix2 (0 : Fin 1) q)) (cm (ix2 (0 : Fin 1) q))) := by
  unfold k0_pay1
  try dsimp only
  rw [shapeCast_self, select_fun, minimumf_apply]

/-- The running sum after a point at the last y tile. -/
theorem pay2_apply (w : BitVec 32) (s0 : Vec Ideal S1024x1 .f32) (s1 : Vec Ideal S1x1 .f32) :
    k0_pay2 w s0 s1 (ix2 (0 : Fin 1) (0 : Fin 1))
      = Scalar.select (Scalar.cmpi .eq w 0#32) (∑ r : Fin 1024, s0 (ix2 r (0 : Fin 1)))
          (s1 (ix2 (0 : Fin 1) (0 : Fin 1)) + ∑ r : Fin 1024, s0 (ix2 r (0 : Fin 1))) := by
  unfold k0_pay2
  try dsimp only
  rw [shapeCast_self, select_fun, addf_apply, colCast_apply, colSum_vector]

/-- The output block: the running sum over 8192 plus the sum of the column minima over 8192, in every lane. -/
theorem pay3_apply (s1 : Vec Ideal S1x1 .f32) (s2 : Vec Ideal S1x8192 .f32) (y : S1x1x128.Idx) :
    k0_pay3 s1 s2 y
      = Ideal.div (s1 (ix2 (0 : Fin 1) (0 : Fin 1))) (Ideal.ofBits .f32 0x46000000#32)
        + Ideal.div (∑ j : Fin 8192, s2 (ix2 (0 : Fin 1) j)) (Ideal.ofBits .f32 0x46000000#32) := by
  have hy0 : (y 0).val = 0 := by have h : (y 0).val < 1 := (y 0).isLt; omega
  have hy1 : (y 1).val = 0 := by have h : (y 1).val < 1 := (y 1).isLt; omega
  unfold k0_pay3
  try dsimp only
  rw [shapeCast_apply _ _ y (ix2 (0 : Fin 1) (⟨(y 2).val, (y 2).isLt⟩ : Fin 128)) (by
    rw [Shape.rowMajor_val_two, Shape.rowMajor_val_three]
    show 0 * 128 + (y 2).val = ((y 0).val * 1 + (y 1).val) * 128 + (y 2).val
    rw [hy0, hy1])]
  rw [colBcast_apply, shapeCast_self, addf_apply, divf_apply, divf_apply, broadcast_apply, colCast_apply, rowSum_vector]
  rfl

end Cert.KernelIdeal.Val

end
-- ==== Proof.Spec.lean ====
/-
  The Chamfer distance between two batches of point clouds, over the extended reals.

  For x, y of shape [4, 8192, 3]: D b n m is the squared distance between point n of x[b] and point m of y[b], computed as
  |x_n|² + |y_m|² − 2 x_n·y_m and clamped below at zero; the value of batch b is the mean over n of the distance from x_n to its
  nearest y_m plus the mean over m of the distance from y_m to its nearest x_n; the result is the mean over the four batches.
-/
import Idealize.ShloMosaic.PureOps.Ideal
import Idealize.ShloMosaic.Lib.ValueIdx

noncomputable section

open scoped BigOperators

namespace Cert.Chamfer

open Idealize.ShloMosaic Idealize.ShloMosaic.ValueIdx

/-- The clamped squared distance between point n of x[b] and point m of y[b]. -/
def D (X Y : (⟨3, ![4, 8192, 3]⟩ : Shape).Idx → EReal) (b : Fin 4) (n mm : Fin 8192) : EReal :=
  max (((∑ k : Fin 3, X (ix3 b n k) * X (ix3 b n k)) + (∑ k : Fin 3, Y (ix3 b mm k) * Y (ix3 b mm k)))
      - Ideal.ofBits .f32 0x40000000#32 * (∑ k : Fin 3, X (ix3 b n k) * Y (ix3 b mm k)))
    (Ideal.ofBits .f32 0x00000000#32)

/-- The value of batch b: the mean over the points of x[b] of their distance to the nearest point of y[b], plus the mean
    over the points of y[b] of their distance to the nearest point of x[b]. -/
def batchVal (X Y : (⟨3, ![4, 8192, 3]⟩ : Shape).Idx → EReal) (b : Fin 4) : EReal :=
  Ideal.div (∑ n : Fin 8192, ⨅ mm : Fin 8192, D X Y b n mm) (Ideal.ofBits .f32 0x46000000#32)
    + Ideal.div (∑ mm : Fin 8192, ⨅ n : Fin 8192, D X Y b n mm) (Ideal.ofBits .f32 0x46000000#32)

/-- The mean of the four batches' values. -/
def chamfer (X Y : (⟨3, ![4, 8192, 3]⟩ : Shape).Idx → EReal) : EReal :=
  Ideal.div (Ideal.ofBits .f32 0x00000000#32 + ∑ b : Fin 4, batchVal X Y b) (Ideal.ofBits .f32 0x40800000#32)

/-- A sum over the indices of a vector of four entries is the sum over the four entries. -/
theorem sum_idx4 {M : Type} [AddCommMonoid M] (f : (⟨1, ![4]⟩ : Shape).Idx → M) : ∑ j, f j = ∑ b : Fin 4, f (ix1 b) := by
  have hj : ∀ j : (⟨1, ![4]⟩ : Shape).Idx, ix1 (⟨(j 0).val, (j 0).isLt⟩ : Fin 4) = j := fun j =>
    funext fun d => Fin.ext (by match d with | ⟨0, _⟩ => rfl)
  let e : (⟨1, ![4]⟩ : Shape).Idx ≃ Fin 4 :=
    { toFun := fun j => (⟨(j 0).val, (j 0).isLt⟩ : Fin 4), invFun := fun b => ix1 b, left_inv := hj, right_inv := fun b => rfl }
  exact Fintype.sum_equiv e _ _ fun j => congrArg f (hj j).symm

end Cert.Chamfer

end
-- ==== Proof.IdealState.lean ====
/-
  What the kernel's scratch holds after each grid point, in closed form over the extended reals.

  Write D b n m for the clamped squared distance between point n of x[b] and point m of y[b]. Point t = 64 b + 8 ni + mi of the
  grid sees x tile ni and y tile mi of batch b. After it: the running row minima are, at row r, the infimum of D b (ni, r) (mi', q)
  over the y tiles mi' ≤ mi visited so far and all q; the running column minima are, at column q of y tile k, the infimum of
  D b (ni', r) (k, q) over the x tiles ni' that have met y tile k so far and all r; the running sum is the sum over the finished
  x tiles ni' of the sums over r of the complete row minima. "So far" is always "8 ni' + k ≤ t mod 64". At the last point of
  batch b everything is complete, and the output block is the mean over the 8192 points of x[b] of the row minima plus the
  mean over the 8192 points of y[b] of the column minima.
-/
import proofs.«178762_j53661321396251_1_alg».proof.Proof.IdealBody
import proofs.«178762_j53661321396251_1_alg».proof.Proof.IdealPay
import proofs.«178762_j53661321396251_1_alg».proof.Proof.LibMinOps
import proofs.«178762_j53661321396251_1_alg».proof.Proof.Spec

set_option maxRecDepth 16384

noncomputable section

open scoped BigOperators

namespace Cert.KernelIdeal.Val

open Idealize.ShloMosaic Idealize.ShloMosaic.TcCoe Idealize.ShloMosaic.ValueIdx Idealize.ShloMosaic.MinOps
open Idealize.SL Idealize.SL.Sem
open Cert.KernelIdeal Cert.KernelIdeal.Gen Cert.KernelIdeal.Body Cert.Chamfer

theorem h8 : 8 * 1024 = 8192 := by norm_num

/-- A comparison of a small nonzero word with zero fails. -/
theorem cmpi_eq_zero_of_pos (k : ℕ) (hk : k < 8) (h0 : k ≠ 0) : Scalar.cmpi .eq (BitVec.ofNat 32 k) 0#32 = 0#1 := by
  interval_cases k <;> first | exact absurd rfl h0 | rfl

variable (m : (ℓ : Loc nD τ sig) → Buf (Elt Ideal) ℓ) (c : Dev nD)

/-- The windows' block indices over the grid. -/
theorem idx_facts : ∀ t : Fin cfg0.N, win0_0.index t (0 : Fin 3) = t.val / 64 ∧ win0_0.index t (1 : Fin 3) = t.val / 8 % 8 ∧ win0_0.index t (2 : Fin 3) = 0
    ∧ win0_1.index t (0 : Fin 3) = t.val / 64 ∧ win0_1.index t (1 : Fin 3) = t.val % 8 ∧ win0_1.index t (2 : Fin 3) = 0
    ∧ win0_2.index t (0 : Fin 3) = t.val / 64 ∧ win0_2.index t (1 : Fin 3) = 0 ∧ win0_2.index t (2 : Fin 3) = 0 :=
  (by decide +kernel : ∀ t : Fin grid0.N, _)

/-- The x block of a point is x tile ni of batch b. -/
theorem xblk_apply (t : Fin cfg0.N) (b : Fin 4) (ni : Fin 8) (hb : b.val = t.val / 64) (hni : ni.val = t.val / 8 % 8) (r : Fin 1024) (k : Fin 3) :
    iblk m c 0 t (ix3 (0 : Fin 1) r k) = V m c main_arg0 (ix3 b (tile h8 ni r) k) := by
  obtain ⟨e0, e1, e2, -⟩ := idx_facts t
  show V m c main_arg0 (((cfg0.win 0).blk t).view.emb (ix3 (0 : Fin 1) r k)) = _
  refine congrArg _ (funext fun a => Fin.ext ?_)
  match a with
  | ⟨0, _⟩ => show win0_0.index t (0 : Fin 3) * 1 + 1 * 0 = b.val; omega
  | ⟨1, _⟩ => show win0_0.index t (1 : Fin 3) * 1024 + 1 * r.val = (tile h8 ni r).val; rw [tile_val]; omega
  | ⟨2, _⟩ => show win0_0.index t (2 : Fin 3) * 3 + 1 * k.val = k.val; omega

/-- The y block of a point is y tile mi of batch b. -/
theorem yblk_apply (t : Fin cfg0.N) (b : Fin 4) (mi : Fin 8) (hb : b.val = t.val / 64) (hmi : mi.val = t.val % 8) (q : Fin 1024) (k : Fin 3) :
    iblk m c 1 t (ix3 (0 : Fin 1) q k) = V m c main_arg1 (ix3 b (tile h8 mi q) k) := by
  obtain ⟨-, -, -, e0, e1, e2, -⟩ := idx_facts t
  show V m c main_arg1 (((cfg0.win 1).blk t).view.emb (ix3 (0 : Fin 1) q k)) = _
  refine congrArg _ (funext fun a => Fin.ext ?_)
  match a with
  | ⟨0, _⟩ => show win0_1.index t (0 : Fin 3) * 1 + 1 * 0 = b.val; omega
  | ⟨1, _⟩ => show win0_1.index t (1 : Fin 3) * 1024 + 1 * q.val = (tile h8 mi q).val; rw [tile_val]; omega
  | ⟨2, _⟩ => show win0_1.index t (2 : Fin 3) * 3 + 1 * k.val = k.val; omega

/-- The distance tile of a point is the distances between x tile ni and y tile mi of batch b. -/
theorem dist_blk (t : Fin cfg0.N) (b : Fin 4) (ni mi : Fin 8) (hb : b.val = t.val / 64) (hni : ni.val = t.val / 8 % 8) (hmi : mi.val = t.val % 8)
    (r q : Fin 1024) :
    dist (iblk m c 0 t) (iblk m c 1 t) r q = D (V m c main_arg0) (V m c main_arg1) b (tile h8 ni r) (tile h8 mi q) := by
  unfold dist D
  simp only [xblk_apply m c t b ni hb hni, yblk_apply m c t b mi hb hmi]

/-- The infimum over y tile mi of the distances from point (ni, r). -/
def rowT (b : Fin 4) (ni mi : Fin 8) (r : Fin 1024) : EReal :=
  ⨅ q : Fin 1024, D (V m c main_arg0) (V m c main_arg1) b (tile h8 ni r) (tile h8 mi q)
/-- The infimum over x tile ni of the distances to point (mi, q). -/
def colT (b : Fin 4) (ni mi : Fin 8) (q : Fin 1024) : EReal :=
  ⨅ r : Fin 1024, D (V m c main_arg0) (V m c main_arg1) b (tile h8 ni r) (tile h8 mi q)

/-- The row minima after a point. -/
theorem rows_step (t : Fin cfg0.N) (b : Fin 4) (ni : Fin 8) (hb : b.val = t.val / 64) (hni : ni.val = t.val / 8 % 8)
    (hprev : t.val % 8 ≠ 0 → ∀ r : Fin 1024, (prevAt m c t.val t.isLt).1 (ix2 r (0 : Fin 1))
      = (Finset.univ.filter fun mi' : Fin 8 => mi'.val ≤ t.val % 8 - 1).inf fun mi' => rowT m c b ni mi' r) (r : Fin 1024) :
    (stAt m c t.val t.isLt).1 (ix2 r (0 : Fin 1))
      = (Finset.univ.filter fun mi' : Fin 8 => mi'.val ≤ t.val % 8).inf fun mi' => rowT m c b ni mi' r := by
  have hm8 : t.val % 8 < 8 := Nat.mod_lt _ (by norm_num)
  rw [stAt_1, pay6_apply, coord2]
  have hd : (⨅ q : Fin 1024, dist (iblk m c 0 t) (iblk m c 1 t) r q) = rowT m c b ni ⟨t.val % 8, hm8⟩ r := by
    unfold rowT
    exact iInf_congr fun q => dist_blk m c t b ni ⟨t.val % 8, hm8⟩ hb hni rfl r q
  rw [hd]
  by_cases h0 : t.val % 8 = 0
  · have hb1 : Scalar.cmpi .eq (BitVec.ofNat 32 (t.val % 8)) 0#32 = 1#1 := by rw [h0]; rfl
    rw [hb1, select_one]
    have hs : (Finset.univ.filter fun mi' : Fin 8 => mi'.val ≤ t.val % 8) = {(⟨t.val % 8, hm8⟩ : Fin 8)} := by
      ext x; simp only [Finset.mem_filter, Finset.mem_univ, true_and, Finset.mem_singleton, Fin.ext_iff]; omega
    rw [hs, Finset.inf_singleton]
  · rw [cmpi_eq_zero_of_pos _ hm8 h0, select_zero, hprev h0 r]
    have hs : (Finset.univ.filter fun mi' : Fin 8 => mi'.val ≤ t.val % 8)
        = insert (⟨t.val % 8, hm8⟩ : Fin 8) (Finset.univ.filter fun mi' : Fin 8 => mi'.val ≤ t.val % 8 - 1) := by
      ext x; simp only [Finset.mem_filter, Finset.mem_univ, true_and, Finset.mem_insert, Fin.ext_iff]; omega
    rw [hs, Finset.inf_insert]
    exact min_comm _ _

/-- The running sum after a point. -/
theorem sum_step (t : Fin cfg0.N) (b : Fin 4) (hb : b.val = t.val / 64)
    (hrows : ∀ (ni : Fin 8), ni.val = t.val / 8 % 8 → ∀ r : Fin 1024, (stAt m c t.val t.isLt).1 (ix2 r (0 : Fin 1))
      = (Finset.univ.filter fun mi' : Fin 8 => mi'.val ≤ t.val % 8).inf fun mi' => rowT m c b ni mi' r)
    (hprev : t.val % 64 ≠ 0 → 7 ≤ (t.val - 1) % 64 → (prevAt m c t.val t.isLt).2.1 (ix2 (0 : Fin 1) (0 : Fin 1))
      = ∑ ni' ∈ Finset.univ.filter (fun ni' : Fin 8 => 8 * ni'.val + 7 ≤ (t.val - 1) % 64), ∑ r : Fin 1024, ⨅ mi' : Fin 8, rowT m c b ni' mi' r)
    (h7 : 7 ≤ t.val % 64) :
    (stAt m c t.val t.isLt).2.1 (ix2 (0 : Fin 1) (0 : Fin 1))
      = ∑ ni' ∈ Finset.univ.filter (fun ni' : Fin 8 => 8 * ni'.val + 7 ≤ t.val % 64), ∑ r : Fin 1024, ⨅ mi' : Fin 8, rowT m c b ni' mi' r := by
  have hn8 : t.val / 8 % 8 < 8 := Nat.mod_lt _ (by norm_num)
  rw [stAt_2]
  by_cases hl : t.val % 8 = 7
  · rw [if_pos hl, pay2_apply, ← stAt_1, coord1]
    have hfull : (Finset.univ.filter fun mi' : Fin 8 => mi'.val ≤ t.val % 8) = Finset.univ := by
      ext x; simp only [Finset.mem_filter, Finset.mem_univ, true_and, iff_true]; have := x.isLt; omega
    have hts : (∑ r : Fin 1024, (stAt m c t.val t.isLt).1 (ix2 r (0 : Fin 1)))
        = ∑ r : Fin 1024, ⨅ mi' : Fin 8, rowT m c b ⟨t.val / 8 % 8, hn8⟩ mi' r :=
      Finset.sum_congr rfl fun r _ => by rw [hrows ⟨t.val / 8 % 8, hn8⟩ rfl r, hfull, Finset.inf_univ_eq_iInf]
    rw [hts]
    by_cases h0 : t.val / 8 % 8 = 0
    · have hb1 : Scalar.cmpi .eq (BitVec.ofNat 32 (t.val / 8 % 8)) 0#32 = 1#1 := by rw [h0]; rfl
      rw [hb1, select_one]
      have hs : (Finset.univ.filter fun ni' : Fin 8 => 8 * ni'.val + 7 ≤ t.val % 64) = {(⟨t.val / 8 % 8, hn8⟩ : Fin 8)} := by
        ext x; simp only [Finset.mem_filter, Finset.mem_univ, true_and, Finset.mem_singleton, Fin.ext_iff]; omega
      rw [hs, Finset.sum_singleton]
    · rw [cmpi_eq_zero_of_pos _ hn8 h0, select_zero, hprev (by omega) (by omega)]
      have hs : (Finset.univ.filter fun ni' : Fin 8 => 8 * ni'.val + 7 ≤ t.val % 64)
          = insert (⟨t.val / 8 % 8, hn8⟩ : Fin 8) (Finset.univ.filter fun ni' : Fin 8 => 8 * ni'.val + 7 ≤ (t.val - 1) % 64) := by
        ext x; simp only [Finset.mem_filter, Finset.mem_univ, true_and, Finset.mem_insert, Fin.ext_iff]; omega
      rw [hs, Finset.sum_insert (by simp only [Finset.mem_filter, Finset.mem_univ, true_and]; omega)]
      exact add_comm _ _
  · rw [if_neg hl, hprev (by omega) (by omega)]
    refine Finset.sum_congr (Finset.filter_congr fun x _ => ?_) fun _ _ => rfl
    omega

/-- Where a point's columns of the running column minima sit. -/
theorem rectC_idx (t : Fin cfg0.N) (k : Fin 8) (hk : k.val = t.val % 8) (q : Fin 1024) :
    (rectC (grid0.coords t)).idx (ix2 (0 : Fin 1) q) = ix2 (0 : Fin 1) (tile h8 k q) := by
  refine funext fun a => Fin.ext ?_
  match a with
  | ⟨0, _⟩ => show k0_off1 (grid0.coords t) 0 + 1 * 0 = 0; rw [k0_off1_eq]; rfl
  | ⟨1, _⟩ =>
    show k0_off1 (grid0.coords t) 1 + 1 * q.val = (tile h8 k q).val
    rw [k0_off1_eq, tile_val]
    show 1024 * ((grid0.coords t) 2).val + 1 * q.val = 1024 * k.val + q.val
    rw [coord2]; omega

/-- The column minima after a point. -/
theorem cols_step (t : Fin cfg0.N) (b : Fin 4) (hb : b.val = t.val / 64)
    (hprev : t.val % 64 ≠ 0 → ∀ (k : Fin 8) (q : Fin 1024), k.val ≤ (t.val - 1) % 64 → (prevAt m c t.val t.isLt).2.2 (ix2 (0 : Fin 1) (tile h8 k q))
      = (Finset.univ.filter fun ni' : Fin 8 => 8 * ni'.val + k.val ≤ (t.val - 1) % 64).inf fun ni' => colT m c b ni' k q)
    (k : Fin 8) (q : Fin 1024) (hk : k.val ≤ t.val % 64) :
    (stAt m c t.val t.isLt).2.2 (ix2 (0 : Fin 1) (tile h8 k q))
      = (Finset.univ.filter fun ni' : Fin 8 => 8 * ni'.val + k.val ≤ t.val % 64).inf fun ni' => colT m c b ni' k q := by
  have hn8 : t.val / 8 % 8 < 8 := Nat.mod_lt _ (by norm_num)
  have hq : q.val < 1024 := q.isLt
  rw [stAt_3]
  by_cases hkm : k.val = t.val % 8
  · rw [colStep_in _ _ _ _ _ _ (ix2 (0 : Fin 1) (tile h8 k q)) (ix2 (0 : Fin 1) q) rfl
      (by show (tile h8 k q).val = 1024 * ((grid0.coords t) 2).val + q.val; rw [coord2, tile_val]; omega)]
    rw [pay1_apply, pay5_apply, coord1]
    have hd : (⨅ r : Fin 1024, dist (iblk m c 0 t) (iblk m c 1 t) r q) = colT m c b ⟨t.val / 8 % 8, hn8⟩ k q := by
      unfold colT
      exact iInf_congr fun r => dist_blk m c t b ⟨t.val / 8 % 8, hn8⟩ k hb rfl hkm r q
    rw [hd]
    have hld : View.ld (prevAt m c t.val t.isLt).2.2 (rectC (grid0.coords t)) (ix2 (0 : Fin 1) q)
        = (prevAt m c t.val t.isLt).2.2 (ix2 (0 : Fin 1) (tile h8 k q)) :=
      congrArg (prevAt m c t.val t.isLt).2.2 (rectC_idx t k hkm q)
    rw [hld]
    by_cases h0 : t.val / 8 % 8 = 0
    · have hb1 : Scalar.cmpi .eq (BitVec.ofNat 32 (t.val / 8 % 8)) 0#32 = 1#1 := by rw [h0]; rfl
      rw [hb1, select_one]
      have hs : (Finset.univ.filter fun ni' : Fin 8 => 8 * ni'.val + k.val ≤ t.val % 64) = {(⟨t.val / 8 % 8, hn8⟩ : Fin 8)} := by
        ext x; simp only [Finset.mem_filter, Finset.mem_univ, true_and, Finset.mem_singleton, Fin.ext_iff]; omega
      rw [hs, Finset.inf_singleton]
    · rw [cmpi_eq_zero_of_pos _ hn8 h0, select_zero, hprev (by omega) k q (by omega)]
      have hs : (Finset.univ.filter fun ni' : Fin 8 => 8 * ni'.val + k.val ≤ t.val % 64)
          = insert (⟨t.val / 8 % 8, hn8⟩ : Fin 8) (Finset.univ.filter fun ni' : Fin 8 => 8 * ni'.val + k.val ≤ (t.val - 1) % 64) := by
        ext x; simp only [Finset.mem_filter, Finset.mem_univ, true_and, Finset.mem_insert, Fin.ext_iff]; omega
      rw [hs, Finset.inf_insert]
      exact min_comm _ _
  · have hk8 : k.val < 8 := k.isLt
    rw [colStep_out _ _ _ _ _ _ (ix2 (0 : Fin 1) (tile h8 k q))
      (by show (tile h8 k q).val < 1024 * ((grid0.coords t) 2).val ∨ 1024 * ((grid0.coords t) 2).val + 1024 ≤ (tile h8 k q).val
          rw [coord2, tile_val]; omega)]
    rw [hprev (by omega) k q (by omega)]
    refine congrArg (fun s : Finset (Fin 8) => s.inf fun ni' => colT m c b ni' k q) (Finset.filter_congr fun x _ => ?_)
    omega

/-- The scratch after point n, in closed form. -/
theorem state_closed (n : ℕ) (h : n < cfg0.N) (b : Fin 4) (hb : b.val = n / 64) :
    (∀ (ni : Fin 8), ni.val = n / 8 % 8 → ∀ r : Fin 1024, (stAt m c n h).1 (ix2 r (0 : Fin 1))
      = (Finset.univ.filter fun mi' : Fin 8 => mi'.val ≤ n % 8).inf fun mi' => rowT m c b ni mi' r)
    ∧ (7 ≤ n % 64 → (stAt m c n h).2.1 (ix2 (0 : Fin 1) (0 : Fin 1))
      = ∑ ni' ∈ Finset.univ.filter (fun ni' : Fin 8 => 8 * ni'.val + 7 ≤ n % 64), ∑ r : Fin 1024, ⨅ mi' : Fin 8, rowT m c b ni' mi' r)
    ∧ (∀ (k : Fin 8) (q : Fin 1024), k.val ≤ n % 64 → (stAt m c n h).2.2 (ix2 (0 : Fin 1) (tile h8 k q))
      = (Finset.univ.filter fun ni' : Fin 8 => 8 * ni'.val + k.val ≤ n % 64).inf fun ni' => colT m c b ni' k q) := by
  induction n generalizing b with
  | zero =>
    have hA : ∀ (ni : Fin 8), ni.val = 0 / 8 % 8 → ∀ r : Fin 1024, (stAt m c 0 h).1 (ix2 r (0 : Fin 1))
        = (Finset.univ.filter fun mi' : Fin 8 => mi'.val ≤ 0 % 8).inf fun mi' => rowT m c b ni mi' r :=
      fun ni hni r => rows_step m c ⟨0, h⟩ b ni hb hni (fun h0 => absurd rfl h0) r
    refine ⟨hA, fun h7 => absurd h7 (by norm_num), fun k q hk => ?_⟩
    exact cols_step m c ⟨0, h⟩ b hb (fun h0 => absurd rfl h0) k q hk
  | succ n ih =>
    have hN : n + 1 < 256 := lt_of_lt_of_eq h (show cfg0.N = 256 from N_0)
    have hn : n < cfg0.N := Nat.lt_of_succ_lt h
    have hp : prevAt m c (n + 1) h = stAt m c n hn := prevAt_pos m c _ _ (Nat.succ_ne_zero n)
    have hb' : (n + 1) % 64 ≠ 0 → b.val = n / 64 := fun h0 => by omega
    have hA : ∀ (ni : Fin 8), ni.val = (n + 1) / 8 % 8 → ∀ r : Fin 1024, (stAt m c (n + 1) h).1 (ix2 r (0 : Fin 1))
        = (Finset.univ.filter fun mi' : Fin 8 => mi'.val ≤ (n + 1) % 8).inf fun mi' => rowT m c b ni mi' r :=
      fun ni hni r => rows_step m c ⟨n + 1, h⟩ b ni hb hni (fun h0 r' => by
        have h0' : (n + 1) % 8 ≠ 0 := h0
        show (prevAt m c (n + 1) h).1 (ix2 r' (0 : Fin 1)) = _
        rw [hp, (ih hn b (hb' (by omega))).1 ni (by omega) r']
        refine congrArg (fun s : Finset (Fin 8) => s.inf fun mi' => rowT m c b ni mi' r') (Finset.filter_congr fun x _ => ?_)
        show x.val ≤ n % 8 ↔ x.val ≤ (n + 1) % 8 - 1
        omega) r
    refine ⟨hA, fun h7 => ?_, fun k q hk => ?_⟩
    · refine sum_step m c ⟨n + 1, h⟩ b hb hA (fun h0 h7' => ?_) h7
      show (prevAt m c (n + 1) h).2.1 (ix2 (0 : Fin 1) (0 : Fin 1)) = _
      rw [hp, (ih hn b (hb' h0)).2.1 h7']
      rfl
    · refine cols_step m c ⟨n + 1, h⟩ b hb (fun h0 k' q' hk' => ?_) k q hk
      show (prevAt m c (n + 1) h).2.2 (ix2 (0 : Fin 1) (tile h8 k' q')) = _
      rw [hp, (ih hn b (hb' h0)).2.2 k' q' hk']
      rfl

/-- The output block written at the last point of batch b holds the batch's value in every lane. -/
theorem out_closed (t : Fin cfg0.N) (hf : t.val % 64 = 63) (b : Fin 4) (hb : b.val = t.val / 64) (y : S1x1x128.Idx) :
    k0_pay3 (stAt m c t.val t.isLt).2.1 (stAt m c t.val t.isLt).2.2 y = batchVal (V m c main_arg0) (V m c main_arg1) b := by
  obtain ⟨-, hS, hC⟩ := state_closed m c t.val t.isLt b hb
  rw [pay3_apply, hS (by omega)]
  have hfull : (Finset.univ.filter fun ni' : Fin 8 => 8 * ni'.val + 7 ≤ t.val % 64) = Finset.univ := by
    ext x; simp only [Finset.mem_filter, Finset.mem_univ, true_and, iff_true]; have := x.isLt; omega
  rw [hfull, sum_tile h8 (fun j : Fin 8192 => (stAt m c t.val t.isLt).2.2 (ix2 (0 : Fin 1) j))]
  unfold batchVal
  rw [sum_tile h8 (fun n : Fin 8192 => ⨅ mm : Fin 8192, D (V m c main_arg0) (V m c main_arg1) b n mm),
    sum_tile h8 (fun mm : Fin 8192 => ⨅ n : Fin 8192, D (V m c main_arg0) (V m c main_arg1) b n mm)]
  congr 2
  · refine Finset.sum_congr rfl fun ni _ => Finset.sum_congr rfl fun r _ => ?_
    rw [iInf_tile h8]; rfl
  · refine Finset.sum_congr rfl fun k _ => Finset.sum_congr rfl fun q _ => ?_
    rw [hC k q (by have := k.isLt; omega)]
    have hfull' : (Finset.univ.filter fun ni' : Fin 8 => 8 * ni'.val + k.val ≤ t.val % 64) = Finset.univ := by
      ext x; simp only [Finset.mem_filter, Finset.mem_univ, true_and, iff_true]; have := x.isLt; have := k.isLt; omega
    rw [hfull', Finset.inf_univ_eq_iInf, iInf_tile h8]; rfl

end Cert.KernelIdeal.Val

end
-- ==== Proof.IdealValue.lean ====
/-
  The kernel computes the Chamfer distance: the output array after the region, the host lines after it, and the run.

  The output array [4, 1, 128] is written back once per batch, at the batch's last grid point, with the batch's value in
  every lane; the four blocks cover it. The host then takes lane 0 of each row, sums the four values from zero and
  divides by four.
-/
import proofs.«178762_j53661321396251_1_alg».proof.Proof.IdealState
import Idealize.ShloMosaic.Lib.StableHlo.Run

set_option maxRecDepth 16384

noncomputable section

open scoped BigOperators

namespace Cert.KernelIdeal.Val

open Idealize.ShloMosaic Idealize.ShloMosaic.TcCoe Idealize.ShloMosaic.ValueIdx Idealize.ShloMosaic.MinOps
open Idealize.SL Idealize.SL.Sem Idealize.ShloMosaic.StableHlo
open Cert.KernelIdeal Cert.KernelIdeal.Gen Cert.KernelIdeal.Body Cert.Chamfer

variable (m : (ℓ : Loc nD τ sig) → Buf (Elt Ideal) ℓ) (ρ : Dev nD → PrngReg)

/-- The output array after the region: batch b's value in every lane of row b. -/
def G (X Y : S4x8192x3.Idx → EReal) : S4x1x128.Idx → EReal := fun i => batchVal X Y ⟨(i 0).val, (i 0).isLt⟩

/-- What the last point of a batch writes back is that batch's block of `G`. -/
theorem flushed2_eq (c : Dev nD) (t : Fin cfg0.N) (hf : (cfg0.win 2).flush t = true) :
    (dats m 0 c).flushed 2 t = ((cfg0.win 2).blk t).view.read (Elt Ideal) (G (V m c main_arg0) (V m c main_arg1)) := by
  have h63 := (flush0_2 t).mp hf
  have hN : t.val < 256 := lt_of_lt_of_eq t.isLt (show cfg0.N = 256 from N_0)
  obtain ⟨-, -, -, -, -, -, e0, e1, e2⟩ := idx_facts t
  show (cfg0.win 2).cut (grid0.coords t) ((dats m 0 c).after 2 t) = _
  rw [after0_2]
  funext y
  show k0_pay3 (F := Ideal) _ _ y = G _ _ (((cfg0.win 2).blk t).view.emb y)
  rw [out_closed m c t h63 ⟨t.val / 64, by omega⟩ rfl y]
  unfold G
  refine congrArg _ (Fin.ext ?_)
  show t.val / 64 = win0_2.index t (0 : Fin 3) * 1 + 1 * (y 0).val
  have hy : (y 0).val < 1 := (y 0).isLt
  omega

/-- An index of the output array is in a point's block iff each coordinate is in the block's range. -/
theorem mem_blk2 (t : Fin cfg0.N) (i : S4x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v0).slice (win0_2.rect t)).set ↔ _
  rw [View.set_slice_whole, Rect.mem_set_unit]
  exact Iff.rfl

/-- The four written blocks cover the output array. -/
theorem cover2 (i : S4x1x128.Idx) : ∃ t : Fin cfg0.N, (cfg0.win 2).flush t = true ∧ i ∈ ((cfg0.win 2).blk t).view.set := by
  have hi0 : (i 0).val < 4 := (i 0).isLt
  have hi1 : (i 1).val < 1 := (i 1).isLt
  have hi2 : (i 2).val < 128 := (i 2).isLt
  obtain ⟨t, ht⟩ : ∃ t : Fin cfg0.N, t.val = 64 * (i 0).val + 63 :=
    ⟨⟨64 * (i 0).val + 63, by have : cfg0.N = 256 := N_0; omega⟩, rfl⟩
  obtain ⟨-, -, -, -, -, -, e0, e1, e2⟩ := idx_facts t
  refine ⟨t, (flush0_2 t).mpr (by omega), ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 128 ≤ (i 2).val ∧ (i 2).val < win0_2.index t (2 : Fin 3) * 128 + 128; omega

/-- The output array after the region. -/
theorem final2 (c : Dev nD) : (dats m 0 c).arrAt 2 cfg0.N = G (V m c main_arg0) (V m c main_arg1) :=
  (dats m 0 c).arrAt_eq_of_cover 2 (G (V m c main_arg0) (V m c main_arg1)) (fun t hf => flushed2_eq m c t hf) cover2

/-- The host's mean of a vector of four entries. -/
theorem tail_reduce (y0 : S4.Idx → EReal) (i : S_.Idx) :
    Host.divf (F := Ideal) (Host.reduceAdd (F := Ideal) y0 (constant (F := Ideal) S_ .f32 0x00000000#32) reducesTo_S4_S_d0 h_S_) (constant (F := Ideal) S_ .f32 0x40800000#32) i
      = Ideal.div (Ideal.ofBits .f32 0x00000000#32 + ∑ b : Fin 4, y0 (ix1 b)) (Ideal.ofBits .f32 0x40800000#32) := by
  show Ideal.div (Host.reduceAdd (F := Ideal) y0 (constant (F := Ideal) S_ .f32 0x00000000#32) reducesTo_S4_S_d0 h_S_ i) (Ideal.ofBits .f32 0x40800000#32) = _
  simp only [Host.reduceAdd, Ideal.hostReduceAdd_def]
  rw [Ideal.hostReduceAdd_total reducesTo_S4_S_d0 (fun b => b.elim0) y0 _ i, sum_idx4]
  rfl

/-- The result after the host lines that follow the region. -/
theorem tail_val (c : Dev nD) :
    Pipeline.afterTail₀ cfgs (dats m) 0 (V0 m) [hostOps1] c main_v4 = fun _ => chamfer (V m c main_arg0) (V m c main_arg1) := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.tc.devRef main_v0)
      = G (V m c main_arg0) (V m c main_arg1) from (Pipeline.withArrays_arr spec0 launch0.win.arr_inj c _ _ 2).trans (final2 m c)]
  funext i
  refine (tail_reduce _ i).trans ?_
  unfold chamfer
  refine congrArg (fun s => Ideal.div (Ideal.ofBits .f32 0x00000000#32 + s) (Ideal.ofBits .f32 0x40800000#32)) (Finset.sum_congr rfl fun b _ => ?_)
  show shapeCast S4 (extractStridedSlice S4x1x1 ![0, 0, 0] (G (V m c main_arg0) (V m c main_arg1)) slices_S4x1x128_S4x1x1_0_0_0) shapeCasts_S4x1x1_S4 (ix1 b) = _
  rw [shapeCast_apply _ _ (ix1 b) (ix3 b (0 : Fin 1) (0 : Fin 1)) (by
    rw [Shape.rowMajor_val_three, Shape.rowMajor_val_one]; show (b.val * 1 + 0) * 1 + 0 = b.val; omega)]
  rw [extractStridedSlice_apply ![0, 0, 0] _ _ (ix3 b (0 : Fin 1) (0 : Fin 1)) (ix3 b (0 : Fin 1) (0 : Fin 128)) (by
    intro a
    match a with
    | ⟨0, _⟩ => show b.val = 0 + b.val; omega
    | ⟨1, _⟩ => show 0 = 0 + 0; rfl
    | ⟨2, _⟩ => show 0 = 0 + 0; rfl)]
  rfl

/-- The kernel's run: it ends with the Chamfer distance of its arguments in its result and its arguments unchanged. -/
theorem run : θ_run defs (onTc (τ := τ) (main (F := Ideal))) ⟨m, fun _ => 0, ρ⟩ (fun r => ∀ c : Dev nD,
      r.2.mem ((c.tc : Thread nD τ).loc main_v4) = (fun _ => chamfer (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v4 (Pipeline.mem_restRefs_of main_v4 rfl (fun w => by fin_cases w <;> decide))).trans (tail_val m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Val

end
-- ==== Proof.RefValue.lean ====
/-
  The reference computes the Chamfer distance.

  Read one operation at a time: the reference forms |x_n|² and |y_m|² by sums over the three coordinates, the inner products by
  a batched product, the clamped squared distances, their minima over m and over n, the two means over 8192, their sum per
  batch, and the mean over the four batches. The only arithmetic used is that the f32 zero is 0 (the initial value of each
  sum) and that the f32 +∞ is the top (the initial value of each minimum).
-/
import proofs.«178762_j53661321396251_1_alg».proof.Proof.Gen.ReferenceIdeal.Read
import proofs.«178762_j53661321396251_1_alg».proof.Proof.LibMinOps
import proofs.«178762_j53661321396251_1_alg».proof.Proof.Spec

set_option maxRecDepth 16384

noncomputable section

open scoped BigOperators

namespace Cert.ReferenceIdeal.RefValue

open Idealize.ShloMosaic Idealize.ShloMosaic.ValueIdx Idealize.ShloMosaic.MinOps
open Cert.ReferenceIdeal Cert.ReferenceIdeal.Gen Cert.ReferenceIdeal.Read Cert.Chamfer

variable (x0 x1 : (⟨S4x8192x3, .f32⟩ : BufTy).Contents (Elt Ideal))

/-- The clamped squared distances. -/
theorem v14_eq (b : Fin 4) (n mm : Fin 8192) : val_main_v14 (F := Ideal) x0 x1 (ix3 b n mm) = D x0 x1 b n mm := by
  have e1 : ∀ k : Fin 3, idx_main_v1 (idx_main_v5 (idx_main_v7 (ix3 b n mm))) k = ix3 b n k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b n mm))) k = ix3 b mm k := fun k =>
    funext fun a => Fin.ext (by match a with | ⟨0, _⟩ => rfl | ⟨1, _⟩ => rfl | ⟨2, _⟩ => rfl)
  have e3 : ∀ k : Fin 3, lidx_main_v4 (ix3 b n mm) k = ix3 b n k := fun k =>
    funext fun a => Fin.ext (by match a with | ⟨0, _⟩ => rfl | ⟨1, _⟩ => rfl | ⟨2, _⟩ => rfl)
  have e4 : ∀ k : Fin 3, ridx_main_v4 (ix3 b n mm) k = ix3 b mm k := fun k =>
    funext fun a => Fin.ext (by match a with | ⟨0, _⟩ => rfl | ⟨1, _⟩ => rfl | ⟨2, _⟩ => rfl)
  rw [val_main_v14_apply, val_main_v12_apply, val_main_v9_apply, val_main_v7_apply, val_main_v5_apply, val_main_v1_apply,
    val_main_v8_apply, val_main_v6_apply, val_main_v3_apply, val_main_v11_apply, val_main_v10_apply, val_main_v4_apply,
    val_main_v13_apply]
  simp only [val_main_v0_apply, val_main_v2_apply, val_main_cst_apply, val_main_cst_0_apply, val_main_cst_1_apply,
    val_main_cst_2_apply, e1, e2, e3, e4, Ideal.ofBits_def, Ideal.ofBits_zero_f32, zero_add]
  unfold D
  rw [Ideal.ofBits_zero_f32]
  rfl

/-- The distance from point n of x[b] to the nearest point of y[b]. -/
theorem v15_eq (b : Fin 4) (n : Fin 8192) : val_main_v15 (F := Ideal) x0 x1 (ix2 b n) = ⨅ mm : Fin 8192, D x0 x1 b n mm := by
  unfold val_main_v15
  rw [hostMin_last (val_main_v14 (F := Ideal) x0 x1) (val_main_cst_3 (F := Ideal)) reducesTo_S4x8192x8192_S4x8192_d2 (by decide) h_S_
    (by show Ideal.ofBits .f32 0x7F800000#32 = (⊤ : EReal); exact ofBits_posInf) b n]
  exact iInf_congr fun mm => v14_eq x0 x1 b n mm

/-- The distance from point m of y[b] to the nearest point of x[b]. -/
theorem v19_eq (b : Fin 4) (mm : Fin 8192) : val_main_v19 (F := Ideal) x0 x1 (ix2 b mm) = ⨅ n : Fin 8192, D x0 x1 b n mm := by
  unfold val_main_v19
  rw [hostMin_mid (val_main_v14 (F := Ideal) x0 x1) (val_main_cst_6 (F := Ideal)) reducesTo_S4x8192x8192_S4x8192_d1 (by decide) h_S_
    (by show Ideal.ofBits .f32 0x7F800000#32 = (⊤ : EReal); exact ofBits_posInf) b mm]
  exact iInf_congr fun n => v14_eq x0 x1 b n mm

/-- The value of batch b. -/
theorem v23_eq (b : Fin 4) : val_main_v23 (F := Ideal) x0 x1 (ix1 b) = batchVal x0 x1 b := by
  have e16 : ∀ k : Fin 8192, idx_main_v16 (ix1 b) k = ix2 b k := fun k =>
    funext fun a => Fin.ext (by match a with | ⟨0, _⟩ => rfl | ⟨1, _⟩ => rfl)
  have e20 : ∀ k : Fin 8192, idx_main_v20 (ix1 b) k = ix2 b k := fun k =>
    funext fun a => Fin.ext (by match a with | ⟨0, _⟩ => rfl | ⟨1, _⟩ => rfl)
  rw [val_main_v23_apply, val_main_v18_apply, val_main_v22_apply, val_main_v16_apply, val_main_v20_apply, val_main_v17_apply,
    val_main_v21_apply]
  simp only [val_main_cst_4_apply, val_main_cst_5_apply, val_main_cst_7_apply, val_main_cst_8_apply, e16, e20, v15_eq, v19_eq,
    Ideal.ofBits_def, Ideal.ofBits_zero_f32, zero_add]
  rfl

/-- The reference's result is the Chamfer distance of its arguments. -/
theorem result_eq : val_main_v25 (F := Ideal) x0 x1 = fun _ => chamfer x0 x1 := by
  funext i
  rw [val_main_v25_apply, val_main_v24_apply, sum_idx4]
  simp only [v23_eq, val_main_cst_9_apply, val_main_cst_10_apply, Ideal.ofBits_def]
  rfl

end Cert.ReferenceIdeal.RefValue

end
-- ==== Proof.lean ====
/-
  A Chamfer-distance kernel against its jnp reference, over the extended reals.

  The kernel tiles the 8192 x 8192 matrix of clamped squared distances of each batch into 1024 x 1024 tiles, one per grid
  point, and keeps between points the running row minima of the current x tile, the running column minima of every y tile
  and the running sum of finished row minima; at the last point of a batch it writes the mean of the row minima plus the
  mean of the column minima, and the host averages the four batches. The reference forms the whole distance matrix and
  takes the two minima and the means directly. Over the extended reals the two agree because a minimum or a sum over 8192
  positions is the minimum or the sum over the eight tiles of each tile's; nothing else is used, so the precondition is
  never opened. The frames of the two kernel programs are the frame run of Proof/BitsBody.lean and Proof/IdealBody.lean
  (one text at the two float instances), the reference's is its run with the result dropped, and the ideal pass rewrote
  nothing.
-/
import proofs.«178762_j53661321396251_1_alg».proof.Defs
import proofs.«178762_j53661321396251_1_alg».proof.Proof.Gen.Kernel
import proofs.«178762_j53661321396251_1_alg».proof.Proof.Gen.KernelIdeal
import proofs.«178762_j53661321396251_1_alg».proof.Proof.Gen.ReferenceIdeal
import proofs.«178762_j53661321396251_1_alg».proof.Proof.Gen.Pre_finite_inputs
import proofs.«178762_j53661321396251_1_alg».proof.Proof.Gen.ReferenceIdeal.Run
import proofs.«178762_j53661321396251_1_alg».proof.Proof.Gen.ReferenceIdeal.Read
import proofs.«178762_j53661321396251_1_alg».proof.Proof.BitsBody
import proofs.«178762_j53661321396251_1_alg».proof.Proof.IdealBody
import proofs.«178762_j53661321396251_1_alg».proof.Proof.IdealValue
import proofs.«178762_j53661321396251_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the Chamfer distance of the arguments in their result. -/
theorem algebraic : Cert.algebraic_KernelIdeal_ReferenceIdeal := by
  intro m ρ m' ρ' _ hagree
  refine ⟨fun c => fun _ => Cert.Chamfer.chamfer (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
